-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x64x512 : Shape := ⟨4, ![32, 64, 64, 512]⟩
abbrev S_ : Shape := ⟨0, ![]⟩

class Facts : Prop where
  bcast_S_S32x64x64x512 : S_.BroadcastsInDim S32x64x64x512 (![] : Fin 0 → Fin S32x64x64x512.rank)
  reducesTo_S32x64x64x512_S_d0_1_2_3 : S32x64x64x512.ReducesTo [0, 1, 2, 3] S_
  h_S_ : 0 < S_.numel

variable [Facts]

def fn {F : FTy → Type} [FloatOps F] (main_arg0 : FVec F S32x64x64x512 .f32) : IVec S_ 1 :=
  let main_v0 : FVec F S32x64x64x512 .f32 := Host.absf main_arg0
  let main_cst : FVec F S_ .f32 := constant S_ .f32 0x7F800000#32
  let main_v1 : FVec F S32x64x64x512 .f32 := broadcastInDim S32x64x64x512 ![] bcast_S_S32x64x64x512 main_cst
  let main_v2 : IVec S32x64x64x512 1 := cmpf .olt main_v0 main_v1
  let main_c : IVec S_ 1 := constantI S_ 1 1#1
  let main_v3 : IVec S_ 1 := (fun x v => Host.reduce IntOp.andi x v reducesTo_S32x64x64x512_S_d0_1_2_3 h_S_) main_v2 main_c
  main_v3
-- ==== Kernel.lean ====
abbrev S32x64x64x512 : Shape := ⟨4, ![32, 64, 64, 512]⟩
abbrev S32x85x512 : Shape := ⟨3, ![32, 85, 512]⟩
abbrev S1x64x64x512 : Shape := ⟨4, ![1, 64, 64, 512]⟩
abbrev S1x85x512 : Shape := ⟨3, ![1, 85, 512]⟩
abbrev S64x64x512 : Shape := ⟨3, ![64, 64, 512]⟩
abbrev S8x8x64x512 : Shape := ⟨4, ![8, 8, 64, 512]⟩
abbrev S8x64x512 : Shape := ⟨3, ![8, 64, 512]⟩
abbrev S8x8x8x512 : Shape := ⟨4, ![8, 8, 8, 512]⟩
abbrev S8x8x512 : Shape := ⟨3, ![8, 8, 512]⟩
abbrev S4x2x8x512 : Shape := ⟨4, ![4, 2, 8, 512]⟩
abbrev S4x8x512 : Shape := ⟨3, ![4, 8, 512]⟩
abbrev S4x4x2x512 : Shape := ⟨4, ![4, 4, 2, 512]⟩
abbrev S4x4x512 : Shape := ⟨3, ![4, 4, 512]⟩
abbrev S2x4x8x512 : Shape := ⟨4, ![2, 4, 8, 512]⟩
abbrev S2x8x512 : Shape := ⟨3, ![2, 8, 512]⟩
abbrev S2x2x4x512 : Shape := ⟨4, ![2, 2, 4, 512]⟩
abbrev S2x2x512 : Shape := ⟨3, ![2, 2, 512]⟩
abbrev S1x8x8x512 : Shape := ⟨4, ![1, 8, 8, 512]⟩
abbrev S1x8x512 : Shape := ⟨3, ![1, 8, 512]⟩
abbrev S1x1x8x512 : Shape := ⟨4, ![1, 1, 8, 512]⟩
abbrev S1x1x512 : Shape := ⟨3, ![1, 1, 512]⟩
abbrev S1x512 : Shape := ⟨2, ![1, 512]⟩
abbrev S4x512 : Shape := ⟨2, ![4, 512]⟩
abbrev S16x512 : Shape := ⟨2, ![16, 512]⟩
abbrev S64x512 : Shape := ⟨2, ![64, 512]⟩
abbrev S85x512 : Shape := ⟨2, ![85, 512]⟩
abbrev S32x43520 : Shape := ⟨2, ![32, 43520]⟩

abbrev nBuf : Space → Nat
  | .hbm => 3
  | .vmem => 4
  | .smem => 0
  | _ => 0

abbrev bufTy : (tb : Table) → Fin (tcTables nBuf tb) → BufTy
  | .hbm, ⟨0, _⟩ => ⟨S32x64x64x512, .f32⟩
  | .hbm, ⟨1, _⟩ => ⟨S32x85x512, .f32⟩
  | .hbm, ⟨2, _⟩ => ⟨S32x43520, .f32⟩
  | .local _ .vmem, ⟨0, _⟩ => ⟨S1x64x64x512, .f32⟩
  | .local _ .vmem, ⟨1, _⟩ => ⟨S1x64x64x512, .f32⟩
  | .local _ .vmem, ⟨2, _⟩ => ⟨S1x85x512, .f32⟩
  | .local _ .vmem, ⟨3, _⟩ => ⟨S1x85x512, .f32⟩
  | _, _ => ⟨S32x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x85x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x64x64x512_S1x64x64x512_0_0_0_0 : ∀ a, (![0, 0, 0, 0] : Fin 4 → Nat) a + S1x64x64x512.size a ≤ S1x64x64x512.size a
  h_S1x64x64x512 : 0 < S1x64x64x512.numel
  shapeCasts_S1x64x64x512_S64x64x512 : S1x64x64x512.ShapeCasts S64x64x512
  shapeCasts_S64x64x512_S8x8x64x512 : S64x64x512.ShapeCasts S8x8x64x512
  reduces_S8x8x64x512_S8x64x512 : S8x8x64x512.Reduces [1] S8x64x512
  shapeCasts_S8x64x512_S8x8x8x512 : S8x64x512.ShapeCasts S8x8x8x512
  reduces_S8x8x8x512_S8x8x512 : S8x8x8x512.Reduces [2] S8x8x512
  shapeCasts_S8x8x512_S4x2x8x512 : S8x8x512.ShapeCasts S4x2x8x512
  reduces_S4x2x8x512_S4x8x512 : S4x2x8x512.Reduces [1] S4x8x512
  shapeCasts_S4x8x512_S4x4x2x512 : S4x8x512.ShapeCasts S4x4x2x512
  reduces_S4x4x2x512_S4x4x512 : S4x4x2x512.Reduces [2] S4x4x512
  shapeCasts_S8x8x512_S2x4x8x512 : S8x8x512.ShapeCasts S2x4x8x512
  reduces_S2x4x8x512_S2x8x512 : S2x4x8x512.Reduces [1] S2x8x512
  shapeCasts_S2x8x512_S2x2x4x512 : S2x8x512.ShapeCasts S2x2x4x512
  reduces_S2x2x4x512_S2x2x512 : S2x2x4x512.Reduces [2] S2x2x512
  shapeCasts_S8x8x512_S1x8x8x512 : S8x8x512.ShapeCasts S1x8x8x512
  reduces_S1x8x8x512_S1x8x512 : S1x8x8x512.Reduces [1] S1x8x512
  shapeCasts_S1x8x512_S1x1x8x512 : S1x8x512.ShapeCasts S1x1x8x512
  reduces_S1x1x8x512_S1x1x512 : S1x1x8x512.Reduces [2] S1x1x512
  shapeCasts_S1x1x512_S1x512 : S1x1x512.ShapeCasts S1x512
  shapeCasts_S2x2x512_S4x512 : S2x2x512.ShapeCasts S4x512
  shapeCasts_S4x4x512_S16x512 : S4x4x512.ShapeCasts S16x512
  shapeCasts_S8x8x512_S64x512 : S8x8x512.ShapeCasts S64x512
  concatenates_S1x512_S4x512_S16x512_S64x512_S85x512_d0 : Shape.Concatenates [S1x512, S4x512, S16x512, S64x512] S85x512 0
  inb_S1x85x512_S1x85x512_0_0_0 : ∀ a, (![0, 0, 0] : Fin 3 → Nat) a + S1x85x512.size a ≤ S1x85x512.size a
  h_S1x85x512 : 0 < S1x85x512.numel
  shapeCasts_S1x85x512_S85x512 : S1x85x512.ShapeCasts S85x512
  shapeCasts_S85x512_S1x85x512 : S85x512.ShapeCasts S1x85x512
  shapeCasts_S32x85x512_S32x43520 : S32x85x512.ShapeCasts S32x43520
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x512.size a ≤ S32x64x64x512.size a
  hwx0_0 : ∀ i : grid0.Coords, EltTy.bits .f32 = 32 ∨ (Rect.block (s := S32x64x64x512) S1x64x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x85x512.size a ≤ S32x85x512.size a
  hwx0_1 : ∀ i : grid0.Coords, EltTy.bits .f32 = 32 ∨ (Rect.block (s := S32x85x512) S1x85x512.size (cc0_transform_1 i) (hinb0_1 i)).WholeWords (EltTy.packing .f32)

variable [Facts₀]

abbrev win0_0 : Pipeline.Window sig grid0 :=
  Pipeline.Window.ofSpec (Memref.whole main_arg0) S1x64x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x85x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x64x64x512 : Shape := ⟨4, ![32, 64, 64, 512]⟩
abbrev S32x0x64x512 : Shape := ⟨4, ![32, 0, 64, 512]⟩
abbrev S32x0x64x64x512 : Shape := ⟨5, ![32, 0, 64, 64, 512]⟩
abbrev S_ : Shape := ⟨0, ![]⟩
abbrev S32x64x512 : Shape := ⟨3, ![32, 64, 512]⟩
abbrev S32x1x64x512 : Shape := ⟨4, ![32, 1, 64, 512]⟩
abbrev S32x1x0x512 : Shape := ⟨4, ![32, 1, 0, 512]⟩
abbrev S32x1x0x64x512 : Shape := ⟨5, ![32, 1, 0, 64, 512]⟩
abbrev S32x1x512 : Shape := ⟨3, ![32, 1, 512]⟩
abbrev S32x1x1x512 : Shape := ⟨4, ![32, 1, 1, 512]⟩
abbrev S32x512 : Shape := ⟨2, ![32, 512]⟩
abbrev S32x32x64x512 : Shape := ⟨4, ![32, 32, 64, 512]⟩
abbrev S32x1x32x64x512 : Shape := ⟨5, ![32, 1, 32, 64, 512]⟩
abbrev S32x2x64x512 : Shape := ⟨4, ![32, 2, 64, 512]⟩
abbrev S32x2x32x512 : Shape := ⟨4, ![32, 2, 32, 512]⟩
abbrev S32x2x1x32x512 : Shape := ⟨5, ![32, 2, 1, 32, 512]⟩
abbrev S32x2x1x512 : Shape := ⟨4, ![32, 2, 1, 512]⟩
abbrev S32x2x512 : Shape := ⟨3, ![32, 2, 512]⟩
abbrev S32x2x2x512 : Shape := ⟨4, ![32, 2, 2, 512]⟩
abbrev S32x2048 : Shape := ⟨2, ![32, 2048]⟩
abbrev S32x48x64x512 : Shape := ⟨4, ![32, 48, 64, 512]⟩
abbrev S32x3x16x64x512 : Shape := ⟨5, ![32, 3, 16, 64, 512]⟩
abbrev S32x3x64x512 : Shape := ⟨4, ![32, 3, 64, 512]⟩
abbrev S32x16x64x512 : Shape := ⟨4, ![32, 16, 64, 512]⟩
abbrev S32x4x64x512 : Shape := ⟨4, ![32, 4, 64, 512]⟩
abbrev S32x4x48x512 : Shape := ⟨4, ![32, 4, 48, 512]⟩
abbrev S32x4x3x16x512 : Shape := ⟨5, ![32, 4, 3, 16, 512]⟩
abbrev S32x4x3x512 : Shape := ⟨4, ![32, 4, 3, 512]⟩
abbrev S32x4x16x512 : Shape := ⟨4, ![32, 4, 16, 512]⟩
abbrev S32x4x512 : Shape := ⟨3, ![32, 4, 512]⟩
abbrev S32x4x1x512 : Shape := ⟨4, ![32, 4, 1, 512]⟩
abbrev S32x4x4x512 : Shape := ⟨4, ![32, 4, 4, 512]⟩
abbrev S32x8192 : Shape := ⟨2, ![32, 8192]⟩
abbrev S32x56x64x512 : Shape := ⟨4, ![32, 56, 64, 512]⟩
abbrev S32x7x8x64x512 : Shape := ⟨5, ![32, 7, 8, 64, 512]⟩
abbrev S32x7x64x512 : Shape := ⟨4, ![32, 7, 64, 512]⟩
abbrev S32x8x64x512 : Shape := ⟨4, ![32, 8, 64, 512]⟩
abbrev S32x8x56x512 : Shape := ⟨4, ![32, 8, 56, 512]⟩
abbrev S32x8x7x8x512 : Shape := ⟨5, ![32, 8, 7, 8, 512]⟩
abbrev S32x8x7x512 : Shape := ⟨4, ![32, 8, 7, 512]⟩
abbrev S32x8x8x512 : Shape := ⟨4, ![32, 8, 8, 512]⟩
abbrev S32x8x512 : Shape := ⟨3, ![32, 8, 512]⟩
abbrev S32x8x1x512 : Shape := ⟨4, ![32, 8, 1, 512]⟩
abbrev S32x32768 : Shape := ⟨2, ![32, 32768]⟩
abbrev S32x43520 : Shape := ⟨2, ![32, 43520]⟩

abbrev nBuf : Space → Nat
  | .hbm => 76
  | .vmem => 0
  | .smem => 0
  | _ => 0

abbrev bufTy : (tb : Table) → Fin (tcTables nBuf tb) → BufTy
  | .hbm, ⟨0, _⟩ => ⟨S32x64x64x512, .f32⟩
  | .hbm, ⟨1, _⟩ => ⟨S32x0x64x512, .f32⟩
  | .hbm, ⟨2, _⟩ => ⟨S32x0x64x64x512, .f32⟩
  | .hbm, ⟨3, _⟩ => ⟨S_, .f32⟩
  | .hbm, ⟨4, _⟩ => ⟨S32x0x64x512, .f32⟩
  | .hbm, ⟨5, _⟩ => ⟨S_, .f32⟩
  | .hbm, ⟨6, _⟩ => ⟨S32x64x512, .f32⟩
  | .hbm, ⟨7, _⟩ => ⟨S32x1x64x512, .f32⟩
  | .hbm, ⟨8, _⟩ => ⟨S32x1x64x512, .f32⟩
  | .hbm, ⟨9, _⟩ => ⟨S32x1x0x512, .f32⟩
  | .hbm, ⟨10, _⟩ => ⟨S32x1x0x64x512, .f32⟩
  | .hbm, ⟨11, _⟩ => ⟨S_, .f32⟩
  | .hbm, ⟨12, _⟩ => ⟨S32x1x0x512, .f32⟩
  | .hbm, ⟨13, _⟩ => ⟨S_, .f32⟩
  | .hbm, ⟨14, _⟩ => ⟨S32x1x512, .f32⟩
  | .hbm, ⟨15, _⟩ => ⟨S32x1x1x512, .f32⟩
  | .hbm, ⟨16, _⟩ => ⟨S32x1x1x512, .f32⟩
  | .hbm, ⟨17, _⟩ => ⟨S32x512, .f32⟩
  | .hbm, ⟨18, _⟩ => ⟨S32x32x64x512, .f32⟩
  | .hbm, ⟨19, _⟩ => ⟨S32x1x32x64x512, .f32⟩
  | .hbm, ⟨20, _⟩ => ⟨S_, .f32⟩
  | .hbm, ⟨21, _⟩ => ⟨S32x1x64x512, .f32⟩
  | .hbm, ⟨22, _⟩ => ⟨S32x32x64x512, .f32⟩
  | .hbm, ⟨23, _⟩ => ⟨S_, .f32⟩
  | .hbm, ⟨24, _⟩ => ⟨S32x64x512, .f32⟩
  | .hbm, ⟨25, _⟩ => ⟨S32x1x64x512, .f32⟩
  | .hbm, ⟨26, _⟩ => ⟨S32x2x64x512, .f32⟩
  | .hbm, ⟨27, _⟩ => ⟨S32x2x32x512, .f32⟩
  | .hbm, ⟨28, _⟩ => ⟨S32x2x1x32x512, .f32⟩
  | .hbm, ⟨29, _⟩ => ⟨S_, .f32⟩
  | .hbm, ⟨30, _⟩ => ⟨S32x2x1x512, .f32⟩
  | .hbm, ⟨31, _⟩ => ⟨S32x2x32x512, .f32⟩
  | .hbm, ⟨32, _⟩ => ⟨S_, .f32⟩
  | .hbm, ⟨33, _⟩ => ⟨S32x2x512, .f32⟩
  | .hbm, ⟨34, _⟩ => ⟨S32x2x1x512, .f32⟩
  | .hbm, ⟨35, _⟩ => ⟨S32x2x2x512, .f32⟩
  | .hbm, ⟨36, _⟩ => ⟨S32x2048, .f32⟩
  | .hbm, ⟨37, _⟩ => ⟨S32x48x64x512, .f32⟩
  | .hbm, ⟨38, _⟩ => ⟨S32x3x16x64x512, .f32⟩
  | .hbm, ⟨39, _⟩ => ⟨S_, .f32⟩
  | .hbm, ⟨40, _⟩ => ⟨S32x3x64x512, .f32⟩
  | .hbm, ⟨41, _⟩ => ⟨S32x16x64x512, .f32⟩
  | .hbm, ⟨42, _⟩ => ⟨S_, .f32⟩
  | .hbm, ⟨43, _⟩ => ⟨S32x64x512, .f32⟩
  | .hbm, ⟨44, _⟩ => ⟨S32x1x64x512, .f32⟩
  | .hbm, ⟨45, _⟩ => ⟨S32x4x64x512, .f32⟩
  | .hbm, ⟨46, _⟩ => ⟨S32x4x48x512, .f32⟩
  | .hbm, ⟨47, _⟩ => ⟨S32x4x3x16x512, .f32⟩
  | .hbm, ⟨48, _⟩ => ⟨S_, .f32⟩
  | .hbm, ⟨49, _⟩ => ⟨S32x4x3x512, .f32⟩
  | .hbm, ⟨50, _⟩ => ⟨S32x4x16x512, .f32⟩
  | .hbm, ⟨51, _⟩ => ⟨S_, .f32⟩
  | .hbm, ⟨52, _⟩ => ⟨S32x4x512, .f32⟩
  | .hbm, ⟨53, _⟩ => ⟨S32x4x1x512, .f32⟩
  | .hbm, ⟨54, _⟩ => ⟨S32x4x4x512, .f32⟩
  | .hbm, ⟨55, _⟩ => ⟨S32x8192, .f32⟩
  | .hbm, ⟨56, _⟩ => ⟨S32x56x64x512, .f32⟩
  | .hbm, ⟨57, _⟩ => ⟨S32x7x8x64x512, .f32⟩
  | .hbm, ⟨58, _⟩ => ⟨S_, .f32⟩
  | .hbm, ⟨59, _⟩ => ⟨S32x7x64x512, .f32⟩
  | .hbm, ⟨60, _⟩ => ⟨S32x8x64x512, .f32⟩
  | .hbm, ⟨61, _⟩ => ⟨S_, .f32⟩
  | .hbm, ⟨62, _⟩ => ⟨S32x64x512, .f32⟩
  | .hbm, ⟨63, _⟩ => ⟨S32x1x64x512, .f32⟩
  | .hbm, ⟨64, _⟩ => ⟨S32x8x64x512, .f32⟩
  | .hbm, ⟨65, _⟩ => ⟨S32x8x56x512, .f32⟩
  | .hbm, ⟨66, _⟩ => ⟨S32x8x7x8x512, .f32⟩
  | .hbm, ⟨67, _⟩ => ⟨S_, .f32⟩
  | .hbm, ⟨68, _⟩ => ⟨S32x8x7x512, .f32⟩
  | .hbm, ⟨69, _⟩ => ⟨S32x8x8x512, .f32⟩
  | .hbm, ⟨70, _⟩ => ⟨S_, .f32⟩
  | .hbm, ⟨71, _⟩ => ⟨S32x8x512, .f32⟩
  | .hbm, ⟨72, _⟩ => ⟨S32x8x1x512, .f32⟩
  | .hbm, ⟨73, _⟩ => ⟨S32x8x8x512, .f32⟩
  | .hbm, ⟨74, _⟩ => ⟨S32x32768, .f32⟩
  | .hbm, ⟨75, _⟩ => ⟨S32x43520, .f32⟩
  | _, _ => ⟨S32x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_5 : Ref sig .tc := ⟨.hbm, 29, rfl⟩
abbrev main_v22 : Ref sig .tc := ⟨.hbm, 30, rfl⟩
abbrev main_v23 : Ref sig .tc := ⟨.hbm, 31, rfl⟩
abbrev main_cst_6 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_7 : Ref sig .tc := ⟨.hbm, 39, rfl⟩
abbrev main_v30 : Ref sig .tc := ⟨.hbm, 40, rfl⟩
abbrev main_v31 : Ref sig .tc := ⟨.hbm, 41, rfl⟩
abbrev main_cst_8 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_9 : Ref sig .tc := ⟨.hbm, 48, rfl⟩
abbrev main_v37 : Ref sig .tc := ⟨.hbm, 49, rfl⟩
abbrev main_v38 : Ref sig .tc := ⟨.hbm, 50, rfl⟩
abbrev main_cst_10 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_11 : Ref sig .tc := ⟨.hbm, 58, rfl⟩
abbrev main_v45 : Ref sig .tc := ⟨.hbm, 59, rfl⟩
abbrev main_v46 : Ref sig .tc := ⟨.hbm, 60, rfl⟩
abbrev main_cst_12 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_13 : Ref sig .tc := ⟨.hbm, 67, rfl⟩
abbrev main_v52 : Ref sig .tc := ⟨.hbm, 68, rfl⟩
abbrev main_v53 : Ref sig .tc := ⟨.hbm, 69, rfl⟩
abbrev main_cst_14 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]

class Facts₀ : Prop where
  slices_S32x64x64x512_S32x0x64x512_0_0_0_0 : S32x64x64x512.Slices ![0, 0, 0, 0] S32x0x64x512
  shapeCasts_S32x0x64x512_S32x0x64x64x512 : S32x0x64x512.ShapeCasts S32x0x64x64x512
  reducesTo_S32x0x64x64x512_S32x0x64x512_d2 : S32x0x64x64x512.ReducesTo [2] S32x0x64x512
  h_S_ : 0 < S_.numel
  reducesTo_S32x64x64x512_S32x64x512_d1 : S32x64x64x512.ReducesTo [1] S32x64x512
  bcast_S32x64x512_S32x1x64x512_0_2_3 : S32x64x512.BroadcastsInDim S32x1x64x512 (![0, 2, 3] : Fin 3 → Fin S32x1x64x512.rank)
  concatenates_S32x0x64x512_S32x1x64x512_S32x1x64x512_d1 : Shape.Concatenates [S32x0x64x512, S32x1x64x512] S32x1x64x512 1
  slices_S32x1x64x512_S32x1x0x512_0_0_0_0 : S32x1x64x512.Slices ![0, 0, 0, 0] S32x1x0x512
  shapeCasts_S32x1x0x512_S32x1x0x64x512 : S32x1x0x512.ShapeCasts S32x1x0x64x512
  reducesTo_S32x1x0x64x512_S32x1x0x512_d3 : S32x1x0x64x512.ReducesTo [3] S32x1x0x512
  reducesTo_S32x1x64x512_S32x1x512_d2 : S32x1x64x512.ReducesTo [2] S32x1x512
  bcast_S32x1x512_S32x1x1x512_0_1_3 : S32x1x512.BroadcastsInDim S32x1x1x512 (![0, 1, 3] : Fin 3 → Fin S32x1x1x512.rank)
  concatenates_S32x1x0x512_S32x1x1x512_S32x1x1x512_d2 : Shape.Concatenates [S32x1x0x512, S32x1x1x512] S32x1x1x512 2
  shapeCasts_S32x1x1x512_S32x512 : S32x1x1x512.ShapeCasts S32x512
  slices_S32x64x64x512_S32x32x64x512_0_0_0_0 : S32x64x64x512.Slices ![0, 0, 0, 0] S32x32x64x512
  shapeCasts_S32x32x64x512_S32x1x32x64x512 : S32x32x64x512.ShapeCasts S32x1x32x64x512
  reducesTo_S32x1x32x64x512_S32x1x64x512_d2 : S32x1x32x64x512.ReducesTo [2] S32x1x64x512
  slices_S32x64x64x512_S32x32x64x512_0_32_0_0 : S32x64x64x512.Slices ![0, 32, 0, 0] S32x32x64x512
  reducesTo_S32x32x64x512_S32x64x512_d1 : S32x32x64x512.ReducesTo [1] S32x64x512
  concatenates_S32x1x64x512_S32x1x64x512_S32x2x64x512_d1 : Shape.Concatenates [S32x1x64x512, S32x1x64x512] S32x2x64x512 1
  slices_S32x2x64x512_S32x2x32x512_0_0_0_0 : S32x2x64x512.Slices ![0, 0, 0, 0] S32x2x32x512
  shapeCasts_S32x2x32x512_S32x2x1x32x512 : S32x2x32x512.ShapeCasts S32x2x1x32x512
  reducesTo_S32x2x1x32x512_S32x2x1x512_d3 : S32x2x1x32x512.ReducesTo [3] S32x2x1x512
  slices_S32x2x64x512_S32x2x32x512_0_0_32_0 : S32x2x64x512.Slices ![0, 0, 32, 0] S32x2x32x512
  reducesTo_S32x2x32x512_S32x2x512_d2 : S32x2x32x512.ReducesTo [2] S32x2x512
  bcast_S32x2x512_S32x2x1x512_0_1_3 : S32x2x512.BroadcastsInDim S32x2x1x512 (![0, 1, 3] : Fin 3 → Fin S32x2x1x512.rank)
  concatenates_S32x2x1x512_S32x2x1x512_S32x2x2x512_d2 : Shape.Concatenates [S32x2x1x512, S32x2x1x512] S32x2x2x512 2
  shapeCasts_S32x2x2x512_S32x2048 : S32x2x2x512.ShapeCasts S32x2048
  slices_S32x64x64x512_S32x48x64x512_0_0_0_0 : S32x64x64x512.Slices ![0, 0, 0, 0] S32x48x64x512
  shapeCasts_S32x48x64x512_S32x3x16x64x512 : S32x48x64x512.ShapeCasts S32x3x16x64x512
  reducesTo_S32x3x16x64x512_S32x3x64x512_d2 : S32x3x16x64x512.ReducesTo [2] S32x3x64x512
  slices_S32x64x64x512_S32x16x64x512_0_48_0_0 : S32x64x64x512.Slices ![0, 48, 0, 0] S32x16x64x512
  reducesTo_S32x16x64x512_S32x64x512_d1 : S32x16x64x512.ReducesTo [1] S32x64x512
  concatenates_S32x3x64x512_S32x1x64x512_S32x4x64x512_d1 : Shape.Concatenates [S32x3x64x512, S32x1x64x512] S32x4x64x512 1
  slices_S32x4x64x512_S32x4x48x512_0_0_0_0 : S32x4x64x512.Slices ![0, 0, 0, 0] S32x4x48x512
  shapeCasts_S32x4x48x512_S32x4x3x16x512 : S32x4x48x512.ShapeCasts S32x4x3x16x512
  reducesTo_S32x4x3x16x512_S32x4x3x512_d3 : S32x4x3x16x512.ReducesTo [3] S32x4x3x512
  slices_S32x4x64x512_S32x4x16x512_0_0_48_0 : S32x4x64x512.Slices ![0, 0, 48, 0] S32x4x16x512
  reducesTo_S32x4x16x512_S32x4x512_d2 : S32x4x16x512.ReducesTo [2] S32x4x512
  bcast_S32x4x512_S32x4x1x512_0_1_3 : S32x4x512.BroadcastsInDim S32x4x1x512 (![0, 1, 3] : Fin 3 → Fin S32x4x1x512.rank)
  concatenates_S32x4x3x512_S32x4x1x512_S32x4x4x512_d2 : Shape.Concatenates [S32x4x3x512, S32x4x1x512] S32x4x4x512 2
  shapeCasts_S32x4x4x512_S32x8192 : S32x4x4x512.ShapeCasts S32x8192
  slices_S32x64x64x512_S32x56x64x512_0_0_0_0 : S32x64x64x512.Slices ![0, 0, 0, 0] S32x56x64x512
  shapeCasts_S32x56x64x512_S32x7x8x64x512 : S32x56x64x512.ShapeCasts S32x7x8x64x512
  reducesTo_S32x7x8x64x512_S32x7x64x512_d2 : S32x7x8x64x512.ReducesTo [2] S32x7x64x512
  slices_S32x64x64x512_S32x8x64x512_0_56_0_0 : S32x64x64x512.Slices ![0, 56, 0, 0] S32x8x64x512
  reducesTo_S32x8x64x512_S32x64x512_d1 : S32x8x64x512.ReducesTo [1] S32x64x512
  concatenates_S32x7x64x512_S32x1x64x512_S32x8x64x512_d1 : Shape.Concatenates [S32x7x64x512, S32x1x64x512] S32x8x64x512 1
  slices_S32x8x64x512_S32x8x56x512_0_0_0_0 : S32x8x64x512.Slices ![0, 0, 0, 0] S32x8x56x512
  shapeCasts_S32x8x56x512_S32x8x7x8x512 : S32x8x56x512.ShapeCasts S32x8x7x8x512
  reducesTo_S32x8x7x8x512_S32x8x7x512_d3 : S32x8x7x8x512.ReducesTo [3] S32x8x7x512
  slices_S32x8x64x512_S32x8x8x512_0_0_56_0 : S32x8x64x512.Slices ![0, 0, 56, 0] S32x8x8x512
  reducesTo_S32x8x8x512_S32x8x512_d2 : S32x8x8x512.ReducesTo [2] S32x8x512
  bcast_S32x8x512_S32x8x1x512_0_1_3 : S32x8x512.BroadcastsInDim S32x8x1x512 (![0, 1, 3] : Fin 3 → Fin S32x8x1x512.rank)
  concatenates_S32x8x7x512_S32x8x1x512_S32x8x8x512_d2 : Shape.Concatenates [S32x8x7x512, S32x8x1x512] S32x8x8x512 2
  shapeCasts_S32x8x8x512_S32x32768 : S32x8x8x512.ShapeCasts S32x32768
  concatenates_S32x512_S32x2048_S32x8192_S32x32768_S32x43520_d1 : Shape.Concatenates [S32x512, S32x2048, S32x8192, S32x32768] S32x43520 1

variable [Facts₀]

class Facts : Prop extends Facts₀ where

variable [Facts]
-- ==== Proof.LibKernelPool.lean ====
/-
  Layout operations and one-axis maxima of a vector read at explicit coordinates, over variable extents.

  A vector of shape `[H, W, C]` is max-pooled along its first two axes in four steps: the first axis is split
  `H = P · K` (a change of shape that keeps the row-major order), the maximum is taken over the inner part `K`, then the
  second axis is split `W = Q · L` and the maximum is taken over `L`. Each step is read here at an index given by its
  coordinates, so that the composite is a double running maximum over the `K × L` entries of a bin. The merge of the
  first two axes `[P, Q, C] → [P · Q, C]` is read the same way.
-/
import Idealize.ShloMosaic.PureOps.Ideal.Laws
import Idealize.ShloMosaic.Lib.Pipeline.Value
import Idealize.ShloMosaic.Lib.ValueIdx

noncomputable section

namespace Cert.KernelPoolLib

open Idealize.ShloMosaic Idealize.ShloMosaic.ValueIdx

/-- The position `i · K + k` of the `k`-th entry of the `i`-th group of `K` is inside `P · K`. -/
theorem split_lt {P K : ℕ} (i : Fin P) (k : Fin K) : i.val * K + k.val < P * K := by
  have h1 : i.val * K + k.val < i.val * K + K := Nat.add_lt_add_left k.isLt _
  have h2 : i.val * K + K = (i.val + 1) * K := by rw [Nat.add_mul, Nat.one_mul]
  have h3 : (i.val + 1) * K ≤ P * K := Nat.mul_le_mul_right K i.isLt
  omega

section Casts
variable {α : Type}

/-- A change of shape that splits the first axis of a rank-3 vector, `[H, W, C] → [P, K, W, C]`: the entry
    `(p, k, w, c)` is the operand's entry `(p · K + k, w, c)`. -/
theorem shapeCast_splitFirst_apply {H W C P K : ℕ} (x : (⟨3, ![H, W, C]⟩ : Shape).Idx → α)
    (h : (⟨3, ![H, W, C]⟩ : Shape).ShapeCasts ⟨4, ![P, K, W, C]⟩)
    (p : Fin P) (k : Fin K) (w : Fin W) (c : Fin C) (hpk : p.val * K + k.val < H) :
    shapeCast ⟨4, ![P, K, W, C]⟩ x h (ix4 p k w c) = x (ix3 ⟨p.val * K + k.val, hpk⟩ w c) := by
  refine shapeCast_apply x h (ix4 p k w c) (ix3 ⟨p.val * K + k.val, hpk⟩ w c) ?_
  rw [Shape.rowMajor_val_three, Shape.rowMajor_val_four]
  rfl

/-- A change of shape that splits the second axis of a rank-3 vector, `[P, W, C] → [P, Q, L, C]` with `W = Q · L`:
    the entry `(p, q, l, c)` is the operand's entry `(p, q · L + l, c)`. -/
theorem shapeCast_splitSecond_apply {P W C Q L : ℕ} (x : (⟨3, ![P, W, C]⟩ : Shape).Idx → α)
    (h : (⟨3, ![P, W, C]⟩ : Shape).ShapeCasts ⟨4, ![P, Q, L, C]⟩) (hW : W = Q * L)
    (p : Fin P) (q : Fin Q) (l : Fin L) (c : Fin C) (hql : q.val * L + l.val < W) :
    shapeCast ⟨4, ![P, Q, L, C]⟩ x h (ix4 p q l c) = x (ix3 p ⟨q.val * L + l.val, hql⟩ c) := by
  refine shapeCast_apply x h (ix4 p q l c) (ix3 p ⟨q.val * L + l.val, hql⟩ c) ?_
  rw [Shape.rowMajor_val_three, Shape.rowMajor_val_four]
  show (p.val * W + (q.val * L + l.val)) * C + c.val = ((p.val * Q + q.val) * L + l.val) * C + c.val
  subst hW
  ring

/-- A change of shape that merges the first two axes of a rank-3 vector, `[P, Q, C] → [R, C]`: row `r` is the
    operand's entry `(r / Q, r % Q)`. -/
theorem shapeCast_mergeFirst_apply {P Q C R : ℕ} (x : (⟨3, ![P, Q, C]⟩ : Shape).Idx → α)
    (h : (⟨3, ![P, Q, C]⟩ : Shape).ShapeCasts ⟨2, ![R, C]⟩)
    (r : Fin R) (c : Fin C) (hp : r.val / Q < P) (hq : r.val % Q < Q) :
    shapeCast ⟨2, ![R, C]⟩ x h (ix2 r c) = x (ix3 ⟨r.val / Q, hp⟩ ⟨r.val % Q, hq⟩ c) := by
  refine shapeCast_apply x h (ix2 r c) (ix3 ⟨r.val / Q, hp⟩ ⟨r.val % Q, hq⟩ c) ?_
  rw [Shape.rowMajor_val_three, Shape.rowMajor_val_two]
  show (r.val / Q * Q + r.val % Q) * C + c.val = r.val * C + c.val
  rw [Nat.div_add_mod']

end Casts

section Maxima
variable {φ : FTy}

/-- The maximum over the second axis of a rank-4 vector, `[P, K, W, C] → [P, W, C]`, at the ideal values: the entry
    `(p, w, c)` is the running maximum, from the accumulator's value, of the entries `(p, k, w, c)` over `k`. -/
theorem multiReduction_max_second_apply {P K W C : ℕ} (src : FVec Ideal ⟨4, ![P, K, W, C]⟩ φ) (acc : BitVec φ.bits)
    (h : (⟨4, ![P, K, W, C]⟩ : Shape).Reduces [1] ⟨3, ![P, W, C]⟩) (hφ : FKind.Formats φ)
    (hacc : acc = FKind.maximumf.neutral φ hφ) (p : Fin P) (w : Fin W) (c : Fin C) :
    multiReduction .maximumf [1] ⟨3, ![P, W, C]⟩ src acc h hφ hacc (ix3 p w c)
      = (Finset.univ : Finset (Fin K)).fold max (Ideal.ofBits φ acc) (fun k => src (ix4 p k w c)) := by
  refine (Ideal.multiReduction_maximumf_single src acc h hφ hacc (ix3 p w c)).trans ?_
  show (Finset.univ : Finset (Fin K)).fold max (Ideal.ofBits φ acc) (fun k => src (h.lift (ix3 p w c) k)) = _
  refine Finset.fold_congr fun k _ => congrArg src (funext fun a => Fin.ext ?_)
  match a with
  | ⟨0, _⟩ => rfl
  | ⟨1, _⟩ => rfl
  | ⟨2, _⟩ => rfl
  | ⟨3, _⟩ => rfl

/-- The maximum over the third axis of a rank-4 vector, `[P, Q, L, C] → [P, Q, C]`, at the ideal values: the entry
    `(p, q, c)` is the running maximum, from the accumulator's value, of the entries `(p, q, l, c)` over `l`. -/
theorem multiReduction_max_third_apply {P Q L C : ℕ} (src : FVec Ideal ⟨4, ![P, Q, L, C]⟩ φ) (acc : BitVec φ.bits)
    (h : (⟨4, ![P, Q, L, C]⟩ : Shape).Reduces [2] ⟨3, ![P, Q, C]⟩) (hφ : FKind.Formats φ)
    (hacc : acc = FKind.maximumf.neutral φ hφ) (p : Fin P) (q : Fin Q) (c : Fin C) :
    multiReduction .maximumf [2] ⟨3, ![P, Q, C]⟩ src acc h hφ hacc (ix3 p q c)
      = (Finset.univ : Finset (Fin L)).fold max (Ideal.ofBits φ acc) (fun l => src (ix4 p q l c)) := by
  refine (Ideal.multiReduction_maximumf_single src acc h hφ hacc (ix3 p q c)).trans ?_
  show (Finset.univ : Finset (Fin L)).fold max (Ideal.ofBits φ acc) (fun l => src (h.lift (ix3 p q c) l)) = _
  refine Finset.fold_congr fun l _ => congrArg src (funext fun a => Fin.ext ?_)
  match a with
  | ⟨0, _⟩ => rfl
  | ⟨1, _⟩ => rfl
  | ⟨2, _⟩ => rfl
  | ⟨3, _⟩ => rfl

end Maxima

section Pool
variable {φ : FTy}

/-- One max-pooling step of a vector `[H, W, C]` into `P × Q` bins of `K × L` entries: split the first axis and take
    the maximum over its inner part, then the same on the second axis. -/
def poolMax {H W C P K Q L : ℕ} (x : FVec Ideal ⟨3, ![H, W, C]⟩ φ) (acc : BitVec φ.bits)
    (h1 : (⟨3, ![H, W, C]⟩ : Shape).ShapeCasts ⟨4, ![P, K, W, C]⟩)
    (h2 : (⟨4, ![P, K, W, C]⟩ : Shape).Reduces [1] ⟨3, ![P, W, C]⟩)
    (h3 : (⟨3, ![P, W, C]⟩ : Shape).ShapeCasts ⟨4, ![P, Q, L, C]⟩)
    (h4 : (⟨4, ![P, Q, L, C]⟩ : Shape).Reduces [2] ⟨3, ![P, Q, C]⟩)
    (hφ : FKind.Formats φ) (hacc : acc = FKind.maximumf.neutral φ hφ) : FVec Ideal ⟨3, ![P, Q, C]⟩ φ :=
  multiReduction .maximumf [2] ⟨3, ![P, Q, C]⟩
    (shapeCast ⟨4, ![P, Q, L, C]⟩
      (multiReduction .maximumf [1] ⟨3, ![P, W, C]⟩ (shapeCast ⟨4, ![P, K, W, C]⟩ x h1) acc h2 hφ hacc) h3)
    acc h4 hφ hacc

/-- The pooled entry of bin `(i, j)`: the running maximum over `l` of the running maxima over `k` of the entries
    `(i · K + k, j · L + l)` of the operand. -/
theorem poolMax_apply {H W C P K Q L : ℕ} (x : FVec Ideal ⟨3, ![H, W, C]⟩ φ) (acc : BitVec φ.bits)
    (h1 : (⟨3, ![H, W, C]⟩ : Shape).ShapeCasts ⟨4, ![P, K, W, C]⟩)
    (h2 : (⟨4, ![P, K, W, C]⟩ : Shape).Reduces [1] ⟨3, ![P, W, C]⟩)
    (h3 : (⟨3, ![P, W, C]⟩ : Shape).ShapeCasts ⟨4, ![P, Q, L, C]⟩)
    (h4 : (⟨4, ![P, Q, L, C]⟩ : Shape).Reduces [2] ⟨3, ![P, Q, C]⟩)
    (hφ : FKind.Formats φ) (hacc : acc = FKind.maximumf.neutral φ hφ)
    (hH : H = P * K) (hW : W = Q * L) (i : Fin P) (j : Fin Q) (c : Fin C) :
    poolMax x acc h1 h2 h3 h4 hφ hacc (ix3 i j c)
      = (Finset.univ : Finset (Fin L)).fold max (Ideal.ofBits φ acc) fun l =>
          (Finset.univ : Finset (Fin K)).fold max (Ideal.ofBits φ acc) fun k =>
            x (ix3 ⟨i.val * K + k.val, hH ▸ split_lt i k⟩ ⟨j.val * L + l.val, hW ▸ split_lt j l⟩ c) := by
  unfold poolMax
  refine (multiReduction_max_third_apply _ acc h4 hφ hacc i j c).trans ?_
  refine Finset.fold_congr fun l _ => ?_
  refine (shapeCast_splitSecond_apply _ h3 hW i j l c (hW ▸ split_lt j l)).trans ?_
  refine (multiReduction_max_second_apply _ acc h2 hφ hacc i _ c).trans ?_
  refine Finset.fold_congr fun k _ => ?_
  exact shapeCast_splitFirst_apply x h1 i k _ c (hH ▸ split_lt i k)

end Pool

end Cert.KernelPoolLib

end
-- ==== Proof.PoolSpec.lean ====
/-
  The pyramid of bin maxima, as a function of the image array.

  An image `x[b, h, w, c]` (32 images of 64 × 64 pixels, 512 channels) is pooled at four scales: for a bin width
  `d` ∈ {64, 32, 16, 8} the bin `(i, j)` holds the pixels with `h / d = i` and `w / d = j`, and its value in
  channel `c` is the largest entry of the bin. The 1 + 4 + 16 + 64 = 85 bins are laid out one after the other, each
  scale's bins in row-major order; the result row of image `b` is the 85 × 512 table read row by row.

  A maximum over a finite family of extended reals is its least upper bound; every fact below is stated through the
  upper bounds: two extended reals with the same upper bounds are equal.
-/
import Idealize.ShloMosaic.PureOps.Ideal
import Idealize.ShloMosaic.Lib.ValueIdx

noncomputable section

namespace Cert.Pool

open Idealize.ShloMosaic Idealize.ShloMosaic.ValueIdx

/-- A running maximum started at `-∞` over finitely many values is below `z` exactly when every value is. -/
theorem foldMax_le_iff {n : ℕ} (f : Fin n → EReal) (z : EReal) :
    (Finset.univ : Finset (Fin n)).fold max ⊥ f ≤ z ↔ ∀ k, f k ≤ z := by
  rw [Finset.fold_max_le]
  exact ⟨fun h k => h.2 k (Finset.mem_univ k), fun h => ⟨bot_le, fun k _ => h k⟩⟩

/-- The f32 pattern of `-∞` is the bottom of the extended reals. -/
theorem ofBits_negInf : Ideal.ofBits .f32 0xFF800000#32 = (⊥ : EReal) := by
  simp [Ideal.ofBits, Ideal.ieee]

/-- Two extended reals with the same upper bounds are equal. -/
theorem eq_of_upper {a b : EReal} (h : ∀ z, a ≤ z ↔ b ≤ z) : a = b :=
  le_antisymm ((h b).2 le_rfl) ((h a).1 le_rfl)

/-- The images. -/
abbrev Img : Type := (⟨4, ![32, 64, 64, 512]⟩ : Shape).Idx → EReal

/-- The largest entry, in channel `c` of image `b`, over the pixels `(h, w)` with `h / d = i` and `w / d = j`. -/
def binMax (x : Img) (b : Fin 32) (c : Fin 512) (d i j : ℕ) : EReal :=
  ⨆ (h : Fin 64) (w : Fin 64) (_ : h.val / d = i ∧ w.val / d = j), x (ix4 b h w c)

theorem binMax_le_iff (x : Img) (b : Fin 32) (c : Fin 512) (d i j : ℕ) (z : EReal) :
    binMax x b c d i j ≤ z ↔ ∀ h w : Fin 64, h.val / d = i → w.val / d = j → x (ix4 b h w c) ≤ z := by
  unfold binMax
  simp only [iSup_le_iff]
  exact ⟨fun H h w hi hj => H h w ⟨hi, hj⟩, fun H h w hh => H h w hh.1 hh.2⟩

/-- Row `r` (of 85) of image `b`'s table: the one bin of width 64, then the 2 × 2 bins of width 32, the 4 × 4 bins of
    width 16, the 8 × 8 bins of width 8. -/
def pyramid (x : Img) (b : Fin 32) (r : ℕ) (c : Fin 512) : EReal :=
  if r < 1 then binMax x b c 64 0 0
  else if r < 5 then binMax x b c 32 ((r - 1) / 2) ((r - 1) % 2)
  else if r < 21 then binMax x b c 16 ((r - 5) / 4) ((r - 5) % 4)
  else binMax x b c 8 ((r - 21) / 8) ((r - 21) % 8)

/-- The result: image `b`'s table read row by row, entry `n = 512 r + c`. -/
def G (x : Img) : (⟨2, ![32, 43520]⟩ : Shape).Idx → EReal :=
  fun i => pyramid x (i 0) ((i 1).val / 512) ⟨(i 1).val % 512, Nat.mod_lt _ (by norm_num)⟩

end Cert.Pool

end
-- ==== Proof.KernelPoolGrid.lean ====
/-
  Grids of bin maxima, and how a coarser grid is obtained from a finer one.

  For an image `x`, a batch entry `b` and a channel `c`, the grid of width `d` over `n` bins per side holds in bin
  `(i, j)` the largest entry over the pixels `(h, w)` with `h / d = i` and `w / d = j`. It is characterised by its upper
  bounds. The image itself is the grid of width 1. Taking, in every `K × K` group of neighbouring bins of a grid of width
  `d`, the maximum of the group, gives the grid of width `d · K`: a pixel lies in the coarse bin `i` exactly when the fine
  bin it lies in belongs to group `i`, because `(h / d) / K = h / (d · K)`.
-/
import proofs.«104218_j23235773071813_2_alg».proof.Proof.PoolSpec

noncomputable section

namespace Cert.PoolGrid

open Idealize.ShloMosaic Idealize.ShloMosaic.ValueIdx Cert.Pool

/-- `g` is the grid of bin maxima of width `d` of channel `c` of image `b`: the upper bounds of its entry `(i, j)`
    are the common upper bounds of the pixels of bin `(i, j)`. -/
def IsBinGrid (x : Img) (b : Fin 32) (c : Fin 512) (d n : ℕ) (g : Fin n → Fin n → EReal) : Prop :=
  ∀ (i j : Fin n) (z : EReal),
    g i j ≤ z ↔ ∀ h w : Fin 64, h.val / d = i.val → w.val / d = j.val → x (ix4 b h w c) ≤ z

/-- A grid of bin maxima holds the bin maxima. -/
theorem IsBinGrid.eq_binMax {x : Img} {b : Fin 32} {c : Fin 512} {d n : ℕ} {g : Fin n → Fin n → EReal}
    (hg : IsBinGrid x b c d n g) (i j : Fin n) : g i j = binMax x b c d i.val j.val :=
  eq_of_upper fun z => (hg i j z).trans (binMax_le_iff x b c d i.val j.val z).symm

/-- The image is its own grid of width 1. -/
theorem isBinGrid_one (x : Img) (b : Fin 32) (c : Fin 512) :
    IsBinGrid x b c 1 64 fun h w => x (ix4 b h w c) := by
  intro i j z
  constructor
  · intro H h w hh hw
    rw [Nat.div_one] at hh hw
    rw [Fin.ext hh, Fin.ext hw]
    exact H
  · intro H
    exact H i j (Nat.div_one _) (Nat.div_one _)

/-- The maxima of the `K × K` groups of a grid of width `d` form the grid of width `d · K`. -/
theorem IsBinGrid.pool {x : Img} {b : Fin 32} {c : Fin 512} {d n P K : ℕ} {g : Fin n → Fin n → EReal}
    (hg : IsBinGrid x b c d n g) (hK : 0 < K) (g' : Fin P → Fin P → EReal)
    (hlt : ∀ (i : Fin P) (k : Fin K), i.val * K + k.val < n)
    (hg' : ∀ i j : Fin P, g' i j = (Finset.univ : Finset (Fin K)).fold max ⊥ fun l =>
      (Finset.univ : Finset (Fin K)).fold max ⊥ fun k => g ⟨i.val * K + k.val, hlt i k⟩ ⟨j.val * K + l.val, hlt j l⟩) :
    IsBinGrid x b c (d * K) P g' := by
  intro i j z
  rw [hg' i j, foldMax_le_iff]
  simp only [foldMax_le_iff]
  have hdiv : ∀ a : ℕ, a / (d * K) = a / d / K := fun a => (Nat.div_div_eq_div_mul a d K).symm
  constructor
  · intro H h w hh hw
    rw [hdiv] at hh hw
    have eh : h.val / d = i.val * K + h.val / d % K := by
      have := Nat.div_add_mod' (h.val / d) K; rw [hh] at this; exact this.symm
    have ew : w.val / d = j.val * K + w.val / d % K := by
      have := Nat.div_add_mod' (w.val / d) K; rw [hw] at this; exact this.symm
    exact (hg _ _ z).1 (H ⟨w.val / d % K, Nat.mod_lt _ hK⟩ ⟨h.val / d % K, Nat.mod_lt _ hK⟩) h w eh ew
  · intro H l k
    refine (hg _ _ z).2 fun h w hh hw => H h w ?_ ?_
    · rw [hdiv, hh]
      show (i.val * K + k.val) / K = i.val
      rw [Nat.add_comm, Nat.add_mul_div_right _ _ hK, Nat.div_eq_of_lt k.isLt, Nat.zero_add]
    · rw [hdiv, hw]
      show (j.val * K + l.val) / K = j.val
      rw [Nat.add_comm, Nat.add_mul_div_right _ _ hK, Nat.div_eq_of_lt l.isLt, Nat.zero_add]

end Cert.PoolGrid

end
-- ==== Proof.KernelPoolPayload.lean ====
/-
  What the kernel's body stores for one image, entry by entry.

  The body turns the image block `v0 : [1, 64, 64, 512]` into the table `[1, 85, 512]`: the block with its unit axis
  dropped is pooled into the 8 × 8 grid of bins of width 8; that grid is pooled again, three times, into the 4 × 4, 2 × 2
  and 1 × 1 grids; the four grids, each with its two bin axes merged into one axis of rows, are laid one after the other,
  coarsest first, and the unit axis is put back. Each grid is the grid of bin maxima of its width (a coarser grid is the
  grid of maxima of groups of the fine one), so row `r` of the table holds the bin maxima the pyramid names for row `r`.
-/
import proofs.«104218_j23235773071813_2_alg».proof.Proof.Gen.KernelIdeal.Skeleton
import proofs.«104218_j23235773071813_2_alg».proof.Proof.LibKernelPool
import proofs.«104218_j23235773071813_2_alg».proof.Proof.KernelPoolGrid
import Idealize.ShloMosaic.Lib.Pipeline.Value

noncomputable section

namespace Cert.KernelIdeal.PoolValue

open Cert.KernelIdeal Cert.KernelIdeal.Gen Idealize.ShloMosaic Idealize.ShloMosaic.ValueIdx
open Cert.KernelPoolLib Cert.Pool Cert.PoolGrid

variable (v0 : Vec Ideal S1x64x64x512 .f32)

/-- The image of the block: its leading unit axis dropped. -/
def img : FVec Ideal S64x64x512 .f32 := shapeCast S64x64x512 v0 shapeCasts_S1x64x64x512_S64x64x512

/-- The 8 × 8 grid of the bins of width 8. -/
def fine : FVec Ideal S8x8x512 .f32 :=
  poolMax (img v0) 0xFF800000#32 shapeCasts_S64x64x512_S8x8x64x512 reduces_S8x8x64x512_S8x64x512
    shapeCasts_S8x64x512_S8x8x8x512 reduces_S8x8x8x512_S8x8x512 (.inl rfl) rfl

/-- The 4 × 4 grid, from the groups of 2 × 2 bins of the fine grid. -/
def quarter : FVec Ideal S4x4x512 .f32 :=
  poolMax (fine v0) 0xFF800000#32 shapeCasts_S8x8x512_S4x2x8x512 reduces_S4x2x8x512_S4x8x512
    shapeCasts_S4x8x512_S4x4x2x512 reduces_S4x4x2x512_S4x4x512 (.inl rfl) rfl

/-- The 2 × 2 grid, from the groups of 4 × 4 bins of the fine grid. -/
def half : FVec Ideal S2x2x512 .f32 :=
  poolMax (fine v0) 0xFF800000#32 shapeCasts_S8x8x512_S2x4x8x512 reduces_S2x4x8x512_S2x8x512
    shapeCasts_S2x8x512_S2x2x4x512 reduces_S2x2x4x512_S2x2x512 (.inl rfl) rfl

/-- The 1 × 1 grid, from all 8 × 8 bins of the fine grid. -/
def whole : FVec Ideal S1x1x512 .f32 :=
  poolMax (fine v0) 0xFF800000#32 shapeCasts_S8x8x512_S1x8x8x512 reduces_S1x8x8x512_S1x8x512
    shapeCasts_S1x8x512_S1x1x8x512 reduces_S1x1x8x512_S1x1x512 (.inl rfl) rfl

/-- The four grids, each with its two bin axes merged into one axis of rows, coarsest first. -/
def pieces : List ((s : Shape) × (s.Idx → Ideal .f32)) :=
  [⟨S1x512, shapeCast S1x512 (whole v0) shapeCasts_S1x1x512_S1x512⟩,
   ⟨S4x512, shapeCast S4x512 (half v0) shapeCasts_S2x2x512_S4x512⟩,
   ⟨S16x512, shapeCast S16x512 (quarter v0) shapeCasts_S4x4x512_S16x512⟩,
   ⟨S64x512, shapeCast S64x512 (fine v0) shapeCasts_S8x8x512_S64x512⟩]

/-- Their rows laid one after the other. -/
def table : FVec Ideal S85x512 .f32 :=
  concatenate S85x512 0 (pieces v0) concatenates_S1x512_S4x512_S16x512_S64x512_S85x512_d0

/-- The stored value is the table with a leading unit axis. -/
theorem pay_eq : k0_pay1 v0 = shapeCast S1x85x512 (table v0) shapeCasts_S85x512_S1x85x512 := rfl

variable {v0}
variable (X : Img) (b : Fin 32) (hx : ∀ (h w : Fin 64) (c : Fin 512), v0 (ix4 (0 : Fin 1) h w c) = X (ix4 b h w c))

/-- The image of the block at a pixel is the block's entry there. -/
theorem img_apply (h w : Fin 64) (c : Fin 512) : img v0 (ix3 h w c) = v0 (ix4 (0 : Fin 1) h w c) := by
  unfold img
  refine shapeCast_apply v0 _ (ix3 h w c) (ix4 (0 : Fin 1) h w c) ?_
  rw [Shape.rowMajor_val_four, Shape.rowMajor_val_three]
  show ((0 * 64 + h.val) * 64 + w.val) * 512 + c.val = (h.val * 64 + w.val) * 512 + c.val
  omega

include hx

/-- The fine grid is the grid of bin maxima of width 8: the maxima of the 8 × 8 groups of pixels. -/
theorem fine_grid (c : Fin 512) : IsBinGrid X b c 8 8 fun i j => fine v0 (ix3 i j c) := by
  have hlt : ∀ (i : Fin 8) (k : Fin 8), i.val * 8 + k.val < 64 := fun i k => by
    have := i.isLt; have := k.isLt; omega
  have hg' : ∀ i j : Fin 8, fine v0 (ix3 i j c) = (Finset.univ : Finset (Fin 8)).fold max ⊥ fun l =>
      (Finset.univ : Finset (Fin 8)).fold max ⊥ fun k =>
        X (ix4 b ⟨i.val * 8 + k.val, hlt i k⟩ ⟨j.val * 8 + l.val, hlt j l⟩ c) := by
    intro i j
    unfold fine
    refine (poolMax_apply _ _ _ _ _ _ _ _ rfl rfl i j c).trans ?_
    rw [ofBits_negInf]
    simp only [img_apply, hx]
  exact (isBinGrid_one X b c).pool (K := 8) (by norm_num) _ hlt hg'

/-- The 4 × 4 grid is the grid of bin maxima of width 16. -/
theorem quarter_grid (c : Fin 512) : IsBinGrid X b c 16 4 fun i j => quarter v0 (ix3 i j c) := by
  have hlt : ∀ (i : Fin 4) (k : Fin 2), i.val * 2 + k.val < 8 := fun i k => by
    have := i.isLt; have := k.isLt; omega
  have hg' : ∀ i j : Fin 4, quarter v0 (ix3 i j c) = (Finset.univ : Finset (Fin 2)).fold max ⊥ fun l =>
      (Finset.univ : Finset (Fin 2)).fold max ⊥ fun k =>
        fine v0 (ix3 ⟨i.val * 2 + k.val, hlt i k⟩ ⟨j.val * 2 + l.val, hlt j l⟩ c) := by
    intro i j
    unfold quarter
    refine (poolMax_apply _ _ _ _ _ _ _ _ rfl rfl i j c).trans ?_
    rw [ofBits_negInf]
  exact (fine_grid X b hx c).pool (K := 2) (by norm_num) _ hlt hg'

/-- The 2 × 2 grid is the grid of bin maxima of width 32. -/
theorem half_grid (c : Fin 512) : IsBinGrid X b c 32 2 fun i j => half v0 (ix3 i j c) := by
  have hlt : ∀ (i : Fin 2) (k : Fin 4), i.val * 4 + k.val < 8 := fun i k => by
    have := i.isLt; have := k.isLt; omega
  have hg' : ∀ i j : Fin 2, half v0 (ix3 i j c) = (Finset.univ : Finset (Fin 4)).fold max ⊥ fun l =>
      (Finset.univ : Finset (Fin 4)).fold max ⊥ fun k =>
        fine v0 (ix3 ⟨i.val * 4 + k.val, hlt i k⟩ ⟨j.val * 4 + l.val, hlt j l⟩ c) := by
    intro i j
    unfold half
    refine (poolMax_apply _ _ _ _ _ _ _ _ rfl rfl i j c).trans ?_
    rw [ofBits_negInf]
  exact (fine_grid X b hx c).pool (K := 4) (by norm_num) _ hlt hg'

/-- The 1 × 1 grid holds the maximum of the whole image. -/
theorem whole_grid (c : Fin 512) : IsBinGrid X b c 64 1 fun i j => whole v0 (ix3 i j c) := by
  have hlt : ∀ (i : Fin 1) (k : Fin 8), i.val * 8 + k.val < 8 := fun i k => by
    have := i.isLt; have := k.isLt; omega
  have hg' : ∀ i j : Fin 1, whole v0 (ix3 i j c) = (Finset.univ : Finset (Fin 8)).fold max ⊥ fun l =>
      (Finset.univ : Finset (Fin 8)).fold max ⊥ fun k =>
        fine v0 (ix3 ⟨i.val * 8 + k.val, hlt i k⟩ ⟨j.val * 8 + l.val, hlt j l⟩ c) := by
    intro i j
    unfold whole
    refine (poolMax_apply _ _ _ _ _ _ _ _ rfl rfl i j c).trans ?_
    rw [ofBits_negInf]
  exact (fine_grid X b hx c).pool (K := 8) (by norm_num) _ hlt hg'

/-- Row `r` of the table holds the bin maxima the pyramid names for row `r`: row 0 is the one bin of width 64; rows
    1 … 4 are the 2 × 2 bins of width 32, row `1 + 2 i + j` the bin `(i, j)`; rows 5 … 20 the 4 × 4 bins of width 16; rows
    21 … 84 the 8 × 8 bins of width 8. -/
theorem table_apply (r : Fin 85) (c : Fin 512) : table v0 (ix2 r c) = pyramid X b r.val c := by
  have hr85 := r.isLt
  unfold pyramid table
  by_cases h1 : r.val < 1
  · rw [if_pos h1]
    refine (concatenate_apply_piece (0 : Fin 2) (pieces v0) _ (ix2 r c) 0 (by omega : (0 : ℕ) < 4) S1x512 _ rfl rfl 0 rfl
      (ix2 ⟨r.val, h1⟩ c) (fun bb hb => ?_) ?_).trans ?_
    · match bb with
      | ⟨0, _⟩ => exact absurd rfl hb
      | ⟨1, _⟩ => rfl
    · show 0 + r.val = r.val
      omega
    · have hp : r.val / 1 < 1 := by omega
      have hq : r.val % 1 < 1 := by omega
      refine (shapeCast_mergeFirst_apply (whole v0) _ ⟨r.val, h1⟩ c hp hq).trans ?_
      refine ((whole_grid X b hx c).eq_binMax ⟨r.val / 1, hp⟩ ⟨r.val % 1, hq⟩).trans ?_
      show binMax X b c 64 (r.val / 1) (r.val % 1) = binMax X b c 64 0 0
      rw [show r.val / 1 = 0 by omega, show r.val % 1 = 0 by omega]
  · rw [if_neg h1]
    by_cases h5 : r.val < 5
    · rw [if_pos h5]
      have hi : r.val - 1 < 4 := by omega
      refine (concatenate_apply_piece (0 : Fin 2) (pieces v0) _ (ix2 r c) 1 (by omega : (1 : ℕ) < 4) S4x512 _ rfl rfl 1 rfl
        (ix2 ⟨r.val - 1, hi⟩ c) (fun bb hb => ?_) ?_).trans ?_
      · match bb with
        | ⟨0, _⟩ => exact absurd rfl hb
        | ⟨1, _⟩ => rfl
      · show 1 + (r.val - 1) = r.val
        omega
      · have hp : (r.val - 1) / 2 < 2 := by omega
        have hq : (r.val - 1) % 2 < 2 := by omega
        refine (shapeCast_mergeFirst_apply (half v0) _ ⟨r.val - 1, hi⟩ c hp hq).trans ?_
        exact (half_grid X b hx c).eq_binMax ⟨(r.val - 1) / 2, hp⟩ ⟨(r.val - 1) % 2, hq⟩
    · rw [if_neg h5]
      by_cases h21 : r.val < 21
      · rw [if_pos h21]
        have hi : r.val - 5 < 16 := by omega
        refine (concatenate_apply_piece (0 : Fin 2) (pieces v0) _ (ix2 r c) 2 (by omega : (2 : ℕ) < 4) S16x512 _ rfl rfl 5 rfl
          (ix2 ⟨r.val - 5, hi⟩ c) (fun bb hb => ?_) ?_).trans ?_
        · match bb with
          | ⟨0, _⟩ => exact absurd rfl hb
          | ⟨1, _⟩ => rfl
        · show 5 + (r.val - 5) = r.val
          omega
        · have hp : (r.val - 5) / 4 < 4 := by omega
          have hq : (r.val - 5) % 4 < 4 := by omega
          refine (shapeCast_mergeFirst_apply (quarter v0) _ ⟨r.val - 5, hi⟩ c hp hq).trans ?_
          exact (quarter_grid X b hx c).eq_binMax ⟨(r.val - 5) / 4, hp⟩ ⟨(r.val - 5) % 4, hq⟩
      · rw [if_neg h21]
        have hi : r.val - 21 < 64 := by omega
        refine (concatenate_apply_piece (0 : Fin 2) (pieces v0) _ (ix2 r c) 3 (by omega : (3 : ℕ) < 4) S64x512 _ rfl rfl 21 rfl
          (ix2 ⟨r.val - 21, hi⟩ c) (fun bb hb => ?_) ?_).trans ?_
        · match bb with
          | ⟨0, _⟩ => exact absurd rfl hb
          | ⟨1, _⟩ => rfl
        · show 21 + (r.val - 21) = r.val
          omega
        · have hp : (r.val - 21) / 8 < 8 := by omega
          have hq : (r.val - 21) % 8 < 8 := by omega
          refine (shapeCast_mergeFirst_apply (fine v0) _ ⟨r.val - 21, hi⟩ c hp hq).trans ?_
          exact (fine_grid X b hx c).eq_binMax ⟨(r.val - 21) / 8, hp⟩ ⟨(r.val - 21) % 8, hq⟩

/-- The stored value at row `r`, channel `c`, is the pyramid's entry for the image the block is. -/
theorem pay_apply (r : Fin 85) (c : Fin 512) : k0_pay1 v0 (ix3 (0 : Fin 1) r c) = pyramid X b r.val c := by
  rw [pay_eq]
  refine (shapeCast_apply (table v0) _ (ix3 (0 : Fin 1) r c) (ix2 r c) ?_).trans (table_apply X b hx r c)
  rw [Shape.rowMajor_val_two, Shape.rowMajor_val_three]
  show r.val * 512 + c.val = (0 * 85 + r.val) * 512 + c.val
  omega

end Cert.KernelIdeal.PoolValue

end
-- ==== Proof.KernelPoolArray.lean ====
/-
  From the blocks to the arrays: what the kernel leaves in its result.

  Grid point `t` (one per image) reads block `t` of the input — image `t` — and writes back block `t` of the output
  `[32, 85, 512]`: the table of image `t`. The 32 blocks tile the output, so after the run the output holds, at
  `(b, r, c)`, the pyramid's entry `(r, c)` of image `b`. The host then reads the output row by row as `[32, 43520]`:
  entry `n` of row `b` is the entry `(b, n / 512, n % 512)` of the output.
-/
import proofs.«104218_j23235773071813_2_alg».proof.Proof.Gen.KernelIdeal.Frame
import proofs.«104218_j23235773071813_2_alg».proof.Proof.KernelPoolPayload
import Idealize.ShloMosaic.Lib.Pipeline.Value

noncomputable section

namespace Cert.KernelIdeal.PoolValue

open Cert.KernelIdeal Cert.KernelIdeal.Gen Idealize.ShloMosaic Idealize.ShloMosaic.TcCoe Idealize.SL.Sem
open Idealize.ShloMosaic.ValueIdx Cert.Pool
open Idealize.ShloMosaic.Pipeline (Dat)

variable (m : (ℓ : Loc nD τ sig) → Buf (Elt Ideal) ℓ) (ρ : Dev nD → PrngReg)

/-- The tables of all the images: entry `(b, r, c)` is the pyramid's entry `(r, c)` of image `b`. -/
def tableOf (x : Img) : S32x85x512.Idx → EReal := fun i =>
  pyramid x ⟨(i 0).val, (i 0).isLt⟩ (i 1).val ⟨(i 2).val, (i 2).isLt⟩

/-- The pyramid's entry depends on the image number and the channel through their values only. -/
theorem pyramid_congr (x : Img) {b b' : Fin 32} {r r' : ℕ} {c c' : Fin 512} (hb : b.val = b'.val) (hr : r = r')
    (hc : c.val = c'.val) : pyramid x b r c = pyramid x b' r' c' := by
  cases Fin.ext hb; cases hr; cases Fin.ext hc; rfl

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The block indices at grid point `t`: block `t` along the image axis of the input and of the output, block 0 along
    every other axis. -/
theorem idx_facts : ∀ t : Fin cfg0.N, win0_0.index t (0 : Fin 4) = t.val
    ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

theorem t_lt (t : Fin cfg0.N) : t.val < 32 := Nat.lt_of_lt_of_eq t.isLt N_0

/-- The input block at point `t` is image `t`: its entry `(0, h, w, c)` is the argument's entry `(t, h, w, c)`. -/
theorem iblk_apply (c : Dev nD) (t : Fin cfg0.N) (h w : Fin 64) (cc : Fin 512) :
    (iblk m c 0 t : Vec Ideal S1x64x64x512 .f32) (ix4 (0 : Fin 1) h w cc)
      = (m ((c : Thread nD τ).loc main_arg0) : S32x64x64x512.Idx → Elt Ideal .f32) (ix4 ⟨t.val, t_lt t⟩ h w cc) := by
  obtain ⟨e0, e1, e2, e3, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 4) * 1 + 1 * 0 = t.val; rw [e0]; omega
  | ⟨1, _⟩ => show win0_0.index t (1 : Fin 4) * 64 + 1 * h.val = h.val; rw [e1]; omega
  | ⟨2, _⟩ => show win0_0.index t (2 : Fin 4) * 64 + 1 * w.val = w.val; rw [e2]; omega
  | ⟨3, _⟩ => show win0_0.index t (3 : Fin 4) * 512 + 1 * cc.val = cc.val; rw [e3]; omega

/-- Grid point `t` writes back block `t` of the tables of the argument's images. -/
theorem flushed_eq (c : Dev nD) (t : Fin cfg0.N) :
    (dats m 0 c).flushed 1 t
      = ((cfg0.win 1).blk t).view.read (Elt Ideal) (tableOf (m ((c : Thread nD τ).loc main_arg0))) := by
  show (cfg0.win 1).cut (grid0.coords t) ((dats m 0 c).after 1 t) = _
  rw [after0_1]
  unfold out0_1
  rw [View.canon_unit_zero hz3]
  simp only [View.ld_unit_zero (S := S1x64x64x512) hz4]
  obtain ⟨-, -, -, -, f0, f1, f2⟩ := idx_facts t
  funext j
  have h0 : (j 0).val < 1 := (j 0).isLt
  have h1 : (j 1).val < 85 := (j 1).isLt
  have h2 : (j 2).val < 512 := (j 2).isLt
  show k0_pay1 (iblk m c 0 t) j
    = tableOf (m ((c : Thread nD τ).loc main_arg0)) (((cfg0.win 1).blk t).view.emb j)
  have ej : (j : S1x85x512.Idx) = ix3 (0 : Fin 1) ⟨(j 1).val, h1⟩ ⟨(j 2).val, h2⟩ :=
    funext fun a => Fin.ext (by
      match a with
      | ⟨0, _⟩ => show (j 0).val = 0; omega
      | ⟨1, _⟩ => rfl
      | ⟨2, _⟩ => rfl)
  refine (congrArg (k0_pay1 (iblk m c 0 t)) ej).trans ?_
  refine (pay_apply (v0 := iblk m c 0 t) (m ((c : Thread nD τ).loc main_arg0)) ⟨t.val, t_lt t⟩
    (fun h w cc => iblk_apply m c t h w cc) ⟨(j 1).val, h1⟩ ⟨(j 2).val, h2⟩).trans ?_
  unfold tableOf
  refine pyramid_congr _ ?_ ?_ ?_
  · show t.val = win0_1.index t (0 : Fin 3) * 1 + 1 * (j 0).val
    rw [f0]; omega
  · show (j 1).val = win0_1.index t (1 : Fin 3) * 85 + 1 * (j 1).val
    rw [f1]; omega
  · show (j 2).val = win0_1.index t (2 : Fin 3) * 512 + 1 * (j 2).val
    rw [f2]; omega

/-- An index of the output is in point `t`'s block iff each coordinate is in the block's range on its axis. -/
theorem mem_blk (t : Fin cfg0.N) (i : S32x85x512.Idx) :
    i ∈ ((cfg0.win 1).blk t).view.set ↔ ∀ a : Fin 3, win0_1.index t a * S1x85x512.size a ≤ (i a).val
      ∧ (i a).val < win0_1.index t a * S1x85x512.size a + S1x85x512.size a := by
  show i ∈ ((View.whole main_v0).slice (win0_1.rect t)).set ↔ _
  rw [View.set_slice_whole, Rect.mem_set_unit]
  exact Iff.rfl

/-- The blocks tile the output: the entry `(b, r, c)` is in the block of point `b`. -/
theorem cover (i : S32x85x512.Idx) :
    ∃ t : Fin cfg0.N, (cfg0.win 1).flush t = true ∧ i ∈ ((cfg0.win 1).blk t).view.set := by
  have hi0 : (i 0).val < 32 := (i 0).isLt
  have hi1 : (i 1).val < 85 := (i 1).isLt
  have hi2 : (i 2).val < 512 := (i 2).isLt
  have hN : cfg0.N = 32 := N_0
  obtain ⟨t, ht⟩ : ∃ t : Fin cfg0.N, t.val = (i 0).val := ⟨⟨(i 0).val, by rw [hN]; exact hi0⟩, rfl⟩
  obtain ⟨-, -, -, -, f0, f1, f2⟩ := idx_facts t
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    rw [f0]; omega
  | ⟨1, _⟩ =>
    show win0_1.index t (1 : Fin 3) * 85 ≤ (i 1).val ∧ (i 1).val < win0_1.index t (1 : Fin 3) * 85 + 85
    rw [f1]; omega
  | ⟨2, _⟩ =>
    show win0_1.index t (2 : Fin 3) * 512 ≤ (i 2).val ∧ (i 2).val < win0_1.index t (2 : Fin 3) * 512 + 512
    rw [f2]; omega

/-- After the region the output holds the tables of the argument's images. -/
theorem final (c : Dev nD) :
    (dats m 0 c).arrAt 1 cfg0.N = tableOf (m ((c : Thread nD τ).loc main_arg0)) :=
  (dats m 0 c).arrAt_eq_of_cover 1 (tableOf (m ((c : Thread nD τ).loc main_arg0)))
    (fun t _ => flushed_eq m c t) cover

end Cert.KernelIdeal.PoolValue

end
-- ==== Proof.KernelPoolRun.lean ====
/-
  The kernel's result: the pyramid of bin maxima of the argument's images, row by row.

  After the region the output `[32, 85, 512]` holds the tables of the images. The host's one operation after the region
  reads it in row-major order as `[32, 43520]`: entry `n` of row `b` is the table's entry `(n / 512, n % 512)` of image
  `b`, because `(b · 85 + n / 512) · 512 + n % 512 = b · 43520 + n`.
-/
import proofs.«104218_j23235773071813_2_alg».proof.Proof.KernelPoolArray

noncomputable section

namespace Cert.KernelIdeal.PoolValue

open Cert.KernelIdeal Cert.KernelIdeal.Gen Idealize.ShloMosaic Idealize.ShloMosaic.TcCoe Idealize.SL.Sem
open Idealize.ShloMosaic.ValueIdx Cert.Pool
open Idealize.ShloMosaic.Pipeline (Dat)

variable (m : (ℓ : Loc nD τ sig) → Buf (Elt Ideal) ℓ) (ρ : Dev nD → PrngReg)

/-- The tables read row by row are the specification's result. -/
theorem reshape_tableOf (x : Img) (h : S32x85x512.ShapeCasts S32x43520) :
    shapeCast S32x43520 (tableOf x) h = G x := by
  funext i
  have h0 : (i 0).val < 32 := (i 0).isLt
  have h1 : (i 1).val < 43520 := (i 1).isLt
  have hr : (i 1).val / 512 < 85 := by omega
  have hc : (i 1).val % 512 < 512 := Nat.mod_lt _ (by norm_num)
  refine (shapeCast_apply (tableOf x) h i (ix3 ⟨(i 0).val, h0⟩ ⟨(i 1).val / 512, hr⟩ ⟨(i 1).val % 512, hc⟩) ?_).trans ?_
  · rw [Shape.rowMajor_val_three, Shape.rowMajor_val_two]
    show ((i 0).val * 85 + (i 1).val / 512) * 512 + (i 1).val % 512 = (i 0).val * 43520 + (i 1).val
    omega
  · rfl

/-- After the host's operation the result array is the specification's function of the argument. -/
theorem tail_eq (c : Dev nD) :
    Pipeline.afterTail₀ cfgs (dats m) 0 (V0 m) [hostOps1] c main_v1 = G (m ((c : Thread nD τ).loc main_arg0)) := by
  unfold Pipeline.afterTail₀
  show StableHlo.after hostOps1 _ (Proc.devRef .tc main_v1) = _
  after_results
  have e : Pipeline.withArrays (cfgs 0).spec c (V0 m c) (fun w => (dats m 0 c).arrAt w (cfgs 0).N)
      (Proc.devRef .tc main_v0) = tableOf (m ((c : Thread nD τ).loc main_arg0)) :=
    (Pipeline.withArrays_arr spec0 launch0.win.arr_inj c _ _ 1).trans (final m c)
  rw [e]
  exact reshape_tableOf _ _

/-- Every weakly fair execution of the program terminates, and ends with the result array at the
    specification's function of the argument array — image `b`'s pyramid of bin maxima read row by row — and the
    argument array unchanged. -/
theorem run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v1)
            = Cert.Pool.G (m ((c.tc : Thread _ _).loc Cert.KernelIdeal.main_arg0))
        ∧ r.2.mem ((c.tc : Thread _ _).loc Cert.KernelIdeal.main_arg0)
            = m ((c.tc : Thread _ _).loc Cert.KernelIdeal.main_arg0)) :=
  (θ_run defs _ _).mono (fun r h c =>
      ⟨((h c).2 main_v1 (Pipeline.mem_restRefs_of main_v1 rfl (by decide))).trans (tail_eq m c),
        ((h c).1 0).trans (((dats m 0 c).arrAt_in 0 rfl _).trans ((A_eq m c 0).trans (V_main_arg0 m c)))⟩)
    (run_main m ρ)

end Cert.KernelIdeal.PoolValue

end
-- ==== Proof.RefStages.lean ====
/-
  The reference program's operations, grouped by pooling scale.

  At a scale with `P` bins per side the reference pools the rows first and the columns second, each in two pieces:
  the first `P - 1` bins from a slice reshaped into `(P - 1, 64 / P)`, the last bin from the remaining slice (the source
  program lets the last bin take a remainder; here `P` divides 64 and there is none), joined along the pooled axis.
  At `P = 1` the first piece is empty. The four scales' tables, flattened, are joined along the last axis.
-/
import proofs.«104218_j23235773071813_2_alg».proof.Proof.Gen.ReferenceIdeal

noncomputable section

namespace Cert.ReferenceIdeal.Stages

open Cert.ReferenceIdeal Cert.ReferenceIdeal.Gen Idealize.ShloMosaic

variable {F : FTy → Type} [FloatOps F]

/-- One bin of rows: no leading piece (a slice of no rows), the whole array reduced over its rows. -/
def rows1 (x : (⟨S32x64x64x512, .f32⟩ : BufTy).Contents (Elt F)) : (⟨S32x1x64x512, .f32⟩ : BufTy).Contents (Elt F) :=
  concatenate S32x1x64x512 1 [⟨S32x0x64x512, (Host.reduce FloatOps.maximumf (shapeCast _ (extractStridedSlice S32x0x64x512 ![0, 0, 0, 0] x slices_S32x64x64x512_S32x0x64x512_0_0_0_0) shapeCasts_S32x0x64x512_S32x0x64x64x512) (constant S_ .f32 0xFF800000#32) reducesTo_S32x0x64x64x512_S32x0x64x512_d2 h_S_)⟩, ⟨S32x1x64x512, (broadcastInDim S32x1x64x512 ![0, 2, 3] bcast_S32x64x512_S32x1x64x512_0_2_3 (Host.reduce FloatOps.maximumf x (constant S_ .f32 0xFF800000#32) reducesTo_S32x64x64x512_S32x64x512_d1 h_S_))⟩] concatenates_S32x0x64x512_S32x1x64x512_S32x1x64x512_d1

/-- … and one bin of columns. -/
def bins1 (x : (⟨S32x64x64x512, .f32⟩ : BufTy).Contents (Elt F)) : (⟨S32x1x1x512, .f32⟩ : BufTy).Contents (Elt F) :=
  concatenate S32x1x1x512 2 [⟨S32x1x0x512, (Host.reduce FloatOps.maximumf (shapeCast _ (extractStridedSlice S32x1x0x512 ![0, 0, 0, 0] (rows1 x) slices_S32x1x64x512_S32x1x0x512_0_0_0_0) shapeCasts_S32x1x0x512_S32x1x0x64x512) (constant S_ .f32 0xFF800000#32) reducesTo_S32x1x0x64x512_S32x1x0x512_d3 h_S_)⟩, ⟨S32x1x1x512, (broadcastInDim S32x1x1x512 ![0, 1, 3] bcast_S32x1x512_S32x1x1x512_0_1_3 (Host.reduce FloatOps.maximumf (rows1 x) (constant S_ .f32 0xFF800000#32) reducesTo_S32x1x64x512_S32x1x512_d2 h_S_))⟩] concatenates_S32x1x0x512_S32x1x1x512_S32x1x1x512_d2

/-- … flattened. -/
def flat1 (x : (⟨S32x64x64x512, .f32⟩ : BufTy).Contents (Elt F)) : (⟨S32x512, .f32⟩ : BufTy).Contents (Elt F) :=
  shapeCast _ (bins1 x) shapeCasts_S32x1x1x512_S32x512

/-- Rows pooled into 2 bins of 32 rows: the first 1 from the leading 32 rows split into (1, 32), the last from the remaining 32 rows. -/
def rows2 (x : (⟨S32x64x64x512, .f32⟩ : BufTy).Contents (Elt F)) : (⟨S32x2x64x512, .f32⟩ : BufTy).Contents (Elt F) :=
  concatenate S32x2x64x512 1 [⟨S32x1x64x512, (Host.reduce FloatOps.maximumf (shapeCast _ (extractStridedSlice S32x32x64x512 ![0, 0, 0, 0] x slices_S32x64x64x512_S32x32x64x512_0_0_0_0) shapeCasts_S32x32x64x512_S32x1x32x64x512) (constant S_ .f32 0xFF800000#32) reducesTo_S32x1x32x64x512_S32x1x64x512_d2 h_S_)⟩, ⟨S32x1x64x512, (broadcastInDim S32x1x64x512 ![0, 2, 3] bcast_S32x64x512_S32x1x64x512_0_2_3 (Host.reduce FloatOps.maximumf (extractStridedSlice S32x32x64x512 ![0, 32, 0, 0] x slices_S32x64x64x512_S32x32x64x512_0_32_0_0) (constant S_ .f32 0xFF800000#32) reducesTo_S32x32x64x512_S32x64x512_d1 h_S_))⟩] concatenates_S32x1x64x512_S32x1x64x512_S32x2x64x512_d1

/-- … and then the columns the same way. -/
def bins2 (x : (⟨S32x64x64x512, .f32⟩ : BufTy).Contents (Elt F)) : (⟨S32x2x2x512, .f32⟩ : BufTy).Contents (Elt F) :=
  concatenate S32x2x2x512 2 [⟨S32x2x1x512, (Host.reduce FloatOps.maximumf (shapeCast _ (extractStridedSlice S32x2x32x512 ![0, 0, 0, 0] (rows2 x) slices_S32x2x64x512_S32x2x32x512_0_0_0_0) shapeCasts_S32x2x32x512_S32x2x1x32x512) (constant S_ .f32 0xFF800000#32) reducesTo_S32x2x1x32x512_S32x2x1x512_d3 h_S_)⟩, ⟨S32x2x1x512, (broadcastInDim S32x2x1x512 ![0, 1, 3] bcast_S32x2x512_S32x2x1x512_0_1_3 (Host.reduce FloatOps.maximumf (extractStridedSlice S32x2x32x512 ![0, 0, 32, 0] (rows2 x) slices_S32x2x64x512_S32x2x32x512_0_0_32_0) (constant S_ .f32 0xFF800000#32) reducesTo_S32x2x32x512_S32x2x512_d2 h_S_))⟩] concatenates_S32x2x1x512_S32x2x1x512_S32x2x2x512_d2

/-- … flattened, bin by bin. -/
def flat2 (x : (⟨S32x64x64x512, .f32⟩ : BufTy).Contents (Elt F)) : (⟨S32x2048, .f32⟩ : BufTy).Contents (Elt F) :=
  shapeCast _ (bins2 x) shapeCasts_S32x2x2x512_S32x2048

/-- Rows pooled into 4 bins of 16 rows: the first 3 from the leading 48 rows split into (3, 16), the last from the remaining 16 rows. -/
def rows4 (x : (⟨S32x64x64x512, .f32⟩ : BufTy).Contents (Elt F)) : (⟨S32x4x64x512, .f32⟩ : BufTy).Contents (Elt F) :=
  concatenate S32x4x64x512 1 [⟨S32x3x64x512, (Host.reduce FloatOps.maximumf (shapeCast _ (extractStridedSlice S32x48x64x512 ![0, 0, 0, 0] x slices_S32x64x64x512_S32x48x64x512_0_0_0_0) shapeCasts_S32x48x64x512_S32x3x16x64x512) (constant S_ .f32 0xFF800000#32) reducesTo_S32x3x16x64x512_S32x3x64x512_d2 h_S_)⟩, ⟨S32x1x64x512, (broadcastInDim S32x1x64x512 ![0, 2, 3] bcast_S32x64x512_S32x1x64x512_0_2_3 (Host.reduce FloatOps.maximumf (extractStridedSlice S32x16x64x512 ![0, 48, 0, 0] x slices_S32x64x64x512_S32x16x64x512_0_48_0_0) (constant S_ .f32 0xFF800000#32) reducesTo_S32x16x64x512_S32x64x512_d1 h_S_))⟩] concatenates_S32x3x64x512_S32x1x64x512_S32x4x64x512_d1

/-- … and then the columns the same way. -/
def bins4 (x : (⟨S32x64x64x512, .f32⟩ : BufTy).Contents (Elt F)) : (⟨S32x4x4x512, .f32⟩ : BufTy).Contents (Elt F) :=
  concatenate S32x4x4x512 2 [⟨S32x4x3x512, (Host.reduce FloatOps.maximumf (shapeCast _ (extractStridedSlice S32x4x48x512 ![0, 0, 0, 0] (rows4 x) slices_S32x4x64x512_S32x4x48x512_0_0_0_0) shapeCasts_S32x4x48x512_S32x4x3x16x512) (constant S_ .f32 0xFF800000#32) reducesTo_S32x4x3x16x512_S32x4x3x512_d3 h_S_)⟩, ⟨S32x4x1x512, (broadcastInDim S32x4x1x512 ![0, 1, 3] bcast_S32x4x512_S32x4x1x512_0_1_3 (Host.reduce FloatOps.maximumf (extractStridedSlice S32x4x16x512 ![0, 0, 48, 0] (rows4 x) slices_S32x4x64x512_S32x4x16x512_0_0_48_0) (constant S_ .f32 0xFF800000#32) reducesTo_S32x4x16x512_S32x4x512_d2 h_S_))⟩] concatenates_S32x4x3x512_S32x4x1x512_S32x4x4x512_d2

/-- … flattened, bin by bin. -/
def flat4 (x : (⟨S32x64x64x512, .f32⟩ : BufTy).Contents (Elt F)) : (⟨S32x8192, .f32⟩ : BufTy).Contents (Elt F) :=
  shapeCast _ (bins4 x) shapeCasts_S32x4x4x512_S32x8192

/-- Rows pooled into 8 bins of 8 rows: the first 7 from the leading 56 rows split into (7, 8), the last from the remaining 8 rows. -/
def rows8 (x : (⟨S32x64x64x512, .f32⟩ : BufTy).Contents (Elt F)) : (⟨S32x8x64x512, .f32⟩ : BufTy).Contents (Elt F) :=
  concatenate S32x8x64x512 1 [⟨S32x7x64x512, (Host.reduce FloatOps.maximumf (shapeCast _ (extractStridedSlice S32x56x64x512 ![0, 0, 0, 0] x slices_S32x64x64x512_S32x56x64x512_0_0_0_0) shapeCasts_S32x56x64x512_S32x7x8x64x512) (constant S_ .f32 0xFF800000#32) reducesTo_S32x7x8x64x512_S32x7x64x512_d2 h_S_)⟩, ⟨S32x1x64x512, (broadcastInDim S32x1x64x512 ![0, 2, 3] bcast_S32x64x512_S32x1x64x512_0_2_3 (Host.reduce FloatOps.maximumf (extractStridedSlice S32x8x64x512 ![0, 56, 0, 0] x slices_S32x64x64x512_S32x8x64x512_0_56_0_0) (constant S_ .f32 0xFF800000#32) reducesTo_S32x8x64x512_S32x64x512_d1 h_S_))⟩] concatenates_S32x7x64x512_S32x1x64x512_S32x8x64x512_d1

/-- … and then the columns the same way. -/
def bins8 (x : (⟨S32x64x64x512, .f32⟩ : BufTy).Contents (Elt F)) : (⟨S32x8x8x512, .f32⟩ : BufTy).Contents (Elt F) :=
  concatenate S32x8x8x512 2 [⟨S32x8x7x512, (Host.reduce FloatOps.maximumf (shapeCast _ (extractStridedSlice S32x8x56x512 ![0, 0, 0, 0] (rows8 x) slices_S32x8x64x512_S32x8x56x512_0_0_0_0) shapeCasts_S32x8x56x512_S32x8x7x8x512) (constant S_ .f32 0xFF800000#32) reducesTo_S32x8x7x8x512_S32x8x7x512_d3 h_S_)⟩, ⟨S32x8x1x512, (broadcastInDim S32x8x1x512 ![0, 1, 3] bcast_S32x8x512_S32x8x1x512_0_1_3 (Host.reduce FloatOps.maximumf (extractStridedSlice S32x8x8x512 ![0, 0, 56, 0] (rows8 x) slices_S32x8x64x512_S32x8x8x512_0_0_56_0) (constant S_ .f32 0xFF800000#32) reducesTo_S32x8x8x512_S32x8x512_d2 h_S_))⟩] concatenates_S32x8x7x512_S32x8x1x512_S32x8x8x512_d2

/-- … flattened, bin by bin. -/
def flat8 (x : (⟨S32x64x64x512, .f32⟩ : BufTy).Contents (Elt F)) : (⟨S32x32768, .f32⟩ : BufTy).Contents (Elt F) :=
  shapeCast _ (bins8 x) shapeCasts_S32x8x8x512_S32x32768

/-- The reference's result: the four scales' tables side by side. -/
def out (x : (⟨S32x64x64x512, .f32⟩ : BufTy).Contents (Elt F)) : (⟨S32x43520, .f32⟩ : BufTy).Contents (Elt F) :=
  concatenate S32x43520 1 [⟨S32x512, flat1 x⟩, ⟨S32x2048, flat2 x⟩, ⟨S32x8192, flat4 x⟩, ⟨S32x32768, flat8 x⟩] concatenates_S32x512_S32x2048_S32x8192_S32x32768_S32x43520_d1

end Cert.ReferenceIdeal.Stages

end
-- ==== Proof.RefRun.lean ====
/-
  The reference program's run, read back: its @main is a straight line of 75 array operations, and every weakly fair
  execution ends with the result buffer at the composition of those operations applied to the argument — the four
  scales' tables of RefStages, side by side — and the argument unchanged.

  The operations come in four runs, one per pooling scale, each reading only the argument and its own earlier
  results, followed by the one operation that joins the four tables. Each run is read back by itself; a later run
  leaves an earlier table where it is.
-/
import proofs.«104218_j23235773071813_2_alg».proof.Proof.RefStages
import Idealize.ShloMosaic.Lib.StableHlo.Run

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- The operations of the one-bin scale, in order. -/
abbrev opsA : List (HloOp τ sig (Elt F)) :=
  [ unary main_arg0 main_v0 ((extractStridedSlice S32x0x64x512 ![0, 0, 0, 0] · slices_S32x64x64x512_S32x0x64x512_0_0_0_0) : (⟨S32x64x64x512, .f32⟩ : BufTy).Contents (Elt F) → (⟨S32x0x64x512, .f32⟩ : BufTy).Contents (Elt F)),
    reshape main_v0 main_v1 rfl shapeCasts_S32x0x64x512_S32x0x64x64x512,
    nullary main_cst (constant S_ .f32 0xFF800000#32),
    binary main_v1 main_cst main_v2 ((fun x v => Host.reduce FloatOps.maximumf x v reducesTo_S32x0x64x64x512_S32x0x64x512_d2 h_S_) : (⟨S32x0x64x64x512, .f32⟩ : BufTy).Contents (Elt F) → (⟨S_, .f32⟩ : BufTy).Contents (Elt F) → (⟨S32x0x64x512, .f32⟩ : BufTy).Contents (Elt F)),
    nullary main_cst_0 (constant S_ .f32 0xFF800000#32),
    binary main_arg0 main_cst_0 main_v3 ((fun x v => Host.reduce FloatOps.maximumf x v reducesTo_S32x64x64x512_S32x64x512_d1 h_S_) : (⟨S32x64x64x512, .f32⟩ : BufTy).Contents (Elt F) → (⟨S_, .f32⟩ : BufTy).Contents (Elt F) → (⟨S32x64x512, .f32⟩ : BufTy).Contents (Elt F)),
    unary main_v3 main_v4 (broadcastInDim S32x1x64x512 ![0, 2, 3] bcast_S32x64x512_S32x1x64x512_0_2_3 : (⟨S32x64x512, .f32⟩ : BufTy).Contents (Elt F) → (⟨S32x1x64x512, .f32⟩ : BufTy).Contents (Elt F)),
    binary main_v2 main_v4 main_v5 ((fun a b => concatenate S32x1x64x512 1 [⟨S32x0x64x512, a⟩, ⟨S32x1x64x512, b⟩] concatenates_S32x0x64x512_S32x1x64x512_S32x1x64x512_d1) : (⟨S32x0x64x512, .f32⟩ : BufTy).Contents (Elt F) → (⟨S32x1x64x512, .f32⟩ : BufTy).Contents (Elt F) → (⟨S32x1x64x512, .f32⟩ : BufTy).Contents (Elt F)),
    unary main_v5 main_v6 ((extractStridedSlice S32x1x0x512 ![0, 0, 0, 0] · slices_S32x1x64x512_S32x1x0x512_0_0_0_0) : (⟨S32x1x64x512, .f32⟩ : BufTy).Contents (Elt F) → (⟨S32x1x0x512, .f32⟩ : BufTy).Contents (Elt F)),
    reshape main_v6 main_v7 rfl shapeCasts_S32x1x0x512_S32x1x0x64x512,
    nullary main_cst_1 (constant S_ .f32 0xFF800000#32),
    binary main_v7 main_cst_1 main_v8 ((fun x v => Host.reduce FloatOps.maximumf x v reducesTo_S32x1x0x64x512_S32x1x0x512_d3 h_S_) : (⟨S32x1x0x64x512, .f32⟩ : BufTy).Contents (Elt F) → (⟨S_, .f32⟩ : BufTy).Contents (Elt F) → (⟨S32x1x0x512, .f32⟩ : BufTy).Contents (Elt F)),
    nullary main_cst_2 (constant S_ .f32 0xFF800000#32),
    binary main_v5 main_cst_2 main_v9 ((fun x v => Host.reduce FloatOps.maximumf x v reducesTo_S32x1x64x512_S32x1x512_d2 h_S_) : (⟨S32x1x64x512, .f32⟩ : BufTy).Contents (Elt F) → (⟨S_, .f32⟩ : BufTy).Contents (Elt F) → (⟨S32x1x512, .f32⟩ : BufTy).Contents (Elt F)),
    unary main_v9 main_v10 (broadcastInDim S32x1x1x512 ![0, 1, 3] bcast_S32x1x512_S32x1x1x512_0_1_3 : (⟨S32x1x512, .f32⟩ : BufTy).Contents (Elt F) → (⟨S32x1x1x512, .f32⟩ : BufTy).Contents (Elt F)),
    binary main_v8 main_v10 main_v11 ((fun a b => concatenate S32x1x1x512 2 [⟨S32x1x0x512, a⟩, ⟨S32x1x1x512, b⟩] concatenates_S32x1x0x512_S32x1x1x512_S32x1x1x512_d2) : (⟨S32x1x0x512, .f32⟩ : BufTy).Contents (Elt F) → (⟨S32x1x1x512, .f32⟩ : BufTy).Contents (Elt F) → (⟨S32x1x1x512, .f32⟩ : BufTy).Contents (Elt F)),
    reshape main_v11 main_v12 rfl shapeCasts_S32x1x1x512_S32x512 ]

/-- The operations of the 2 × 2 scale. -/
abbrev opsB : List (HloOp τ sig (Elt F)) :=
  [ unary main_arg0 main_v13 ((extractStridedSlice S32x32x64x512 ![0, 0, 0, 0] · slices_S32x64x64x512_S32x32x64x512_0_0_0_0) : (⟨S32x64x64x512, .f32⟩ : BufTy).Contents (Elt F) → (⟨S32x32x64x512, .f32⟩ : BufTy).Contents (Elt F)),
    reshape main_v13 main_v14 rfl shapeCasts_S32x32x64x512_S32x1x32x64x512,
    nullary main_cst_3 (constant S_ .f32 0xFF800000#32),
    binary main_v14 main_cst_3 main_v15 ((fun x v => Host.reduce FloatOps.maximumf x v reducesTo_S32x1x32x64x512_S32x1x64x512_d2 h_S_) : (⟨S32x1x32x64x512, .f32⟩ : BufTy).Contents (Elt F) → (⟨S_, .f32⟩ : BufTy).Contents (Elt F) → (⟨S32x1x64x512, .f32⟩ : BufTy).Contents (Elt F)),
    unary main_arg0 main_v16 ((extractStridedSlice S32x32x64x512 ![0, 32, 0, 0] · slices_S32x64x64x512_S32x32x64x512_0_32_0_0) : (⟨S32x64x64x512, .f32⟩ : BufTy).Contents (Elt F) → (⟨S32x32x64x512, .f32⟩ : BufTy).Contents (Elt F)),
    nullary main_cst_4 (constant S_ .f32 0xFF800000#32),
    binary main_v16 main_cst_4 main_v17 ((fun x v => Host.reduce FloatOps.maximumf x v reducesTo_S32x32x64x512_S32x64x512_d1 h_S_) : (⟨S32x32x64x512, .f32⟩ : BufTy).Contents (Elt F) → (⟨S_, .f32⟩ : BufTy).Contents (Elt F) → (⟨S32x64x512, .f32⟩ : BufTy).Contents (Elt F)),
    unary main_v17 main_v18 (broadcastInDim S32x1x64x512 ![0, 2, 3] bcast_S32x64x512_S32x1x64x512_0_2_3 : (⟨S32x64x512, .f32⟩ : BufTy).Contents (Elt F) → (⟨S32x1x64x512, .f32⟩ : BufTy).Contents (Elt F)),
    binary main_v15 main_v18 main_v19 ((fun a b => concatenate S32x2x64x512 1 [⟨S32x1x64x512, a⟩, ⟨S32x1x64x512, b⟩] concatenates_S32x1x64x512_S32x1x64x512_S32x2x64x512_d1) : (⟨S32x1x64x512, .f32⟩ : BufTy).Contents (Elt F) → (⟨S32x1x64x512, .f32⟩ : BufTy).Contents (Elt F) → (⟨S32x2x64x512, .f32⟩ : BufTy).Contents (Elt F)),
    unary main_v19 main_v20 ((extractStridedSlice S32x2x32x512 ![0, 0, 0, 0] · slices_S32x2x64x512_S32x2x32x512_0_0_0_0) : (⟨S32x2x64x512, .f32⟩ : BufTy).Contents (Elt F) → (⟨S32x2x32x512, .f32⟩ : BufTy).Contents (Elt F)),
    reshape main_v20 main_v21 rfl shapeCasts_S32x2x32x512_S32x2x1x32x512,
    nullary main_cst_5 (constant S_ .f32 0xFF800000#32),
    binary main_v21 main_cst_5 main_v22 ((fun x v => Host.reduce FloatOps.maximumf x v reducesTo_S32x2x1x32x512_S32x2x1x512_d3 h_S_) : (⟨S32x2x1x32x512, .f32⟩ : BufTy).Contents (Elt F) → (⟨S_, .f32⟩ : BufTy).Contents (Elt F) → (⟨S32x2x1x512, .f32⟩ : BufTy).Contents (Elt F)),
    unary main_v19 main_v23 ((extractStridedSlice S32x2x32x512 ![0, 0, 32, 0] · slices_S32x2x64x512_S32x2x32x512_0_0_32_0) : (⟨S32x2x64x512, .f32⟩ : BufTy).Contents (Elt F) → (⟨S32x2x32x512, .f32⟩ : BufTy).Contents (Elt F)),
    nullary main_cst_6 (constant S_ .f32 0xFF800000#32),
    binary main_v23 main_cst_6 main_v24 ((fun x v => Host.reduce FloatOps.maximumf x v reducesTo_S32x2x32x512_S32x2x512_d2 h_S_) : (⟨S32x2x32x512, .f32⟩ : BufTy).Contents (Elt F) → (⟨S_, .f32⟩ : BufTy).Contents (Elt F) → (⟨S32x2x512, .f32⟩ : BufTy).Contents (Elt F)),
    unary main_v24 main_v25 (broadcastInDim S32x2x1x512 ![0, 1, 3] bcast_S32x2x512_S32x2x1x512_0_1_3 : (⟨S32x2x512, .f32⟩ : BufTy).Contents (Elt F) → (⟨S32x2x1x512, .f32⟩ : BufTy).Contents (Elt F)),
    binary main_v22 main_v25 main_v26 ((fun a b => concatenate S32x2x2x512 2 [⟨S32x2x1x512, a⟩, ⟨S32x2x1x512, b⟩] concatenates_S32x2x1x512_S32x2x1x512_S32x2x2x512_d2) : (⟨S32x2x1x512, .f32⟩ : BufTy).Contents (Elt F) → (⟨S32x2x1x512, .f32⟩ : BufTy).Contents (Elt F) → (⟨S32x2x2x512, .f32⟩ : BufTy).Contents (Elt F)),
    reshape main_v26 main_v27 rfl shapeCasts_S32x2x2x512_S32x2048 ]

/-- The operations of the 4 × 4 scale. -/
abbrev opsC : List (HloOp τ sig (Elt F)) :=
  [ unary main_arg0 main_v28 ((extractStridedSlice S32x48x64x512 ![0, 0, 0, 0] · slices_S32x64x64x512_S32x48x64x512_0_0_0_0) : (⟨S32x64x64x512, .f32⟩ : BufTy).Contents (Elt F) → (⟨S32x48x64x512, .f32⟩ : BufTy).Contents (Elt F)),
    reshape main_v28 main_v29 rfl shapeCasts_S32x48x64x512_S32x3x16x64x512,
    nullary main_cst_7 (constant S_ .f32 0xFF800000#32),
    binary main_v29 main_cst_7 main_v30 ((fun x v => Host.reduce FloatOps.maximumf x v reducesTo_S32x3x16x64x512_S32x3x64x512_d2 h_S_) : (⟨S32x3x16x64x512, .f32⟩ : BufTy).Contents (Elt F) → (⟨S_, .f32⟩ : BufTy).Contents (Elt F) → (⟨S32x3x64x512, .f32⟩ : BufTy).Contents (Elt F)),
    unary main_arg0 main_v31 ((extractStridedSlice S32x16x64x512 ![0, 48, 0, 0] · slices_S32x64x64x512_S32x16x64x512_0_48_0_0) : (⟨S32x64x64x512, .f32⟩ : BufTy).Contents (Elt F) → (⟨S32x16x64x512, .f32⟩ : BufTy).Contents (Elt F)),
    nullary main_cst_8 (constant S_ .f32 0xFF800000#32),
    binary main_v31 main_cst_8 main_v32 ((fun x v => Host.reduce FloatOps.maximumf x v reducesTo_S32x16x64x512_S32x64x512_d1 h_S_) : (⟨S32x16x64x512, .f32⟩ : BufTy).Contents (Elt F) → (⟨S_, .f32⟩ : BufTy).Contents (Elt F) → (⟨S32x64x512, .f32⟩ : BufTy).Contents (Elt F)),
    unary main_v32 main_v33 (broadcastInDim S32x1x64x512 ![0, 2, 3] bcast_S32x64x512_S32x1x64x512_0_2_3 : (⟨S32x64x512, .f32⟩ : BufTy).Contents (Elt F) → (⟨S32x1x64x512, .f32⟩ : BufTy).Contents (Elt F)),
    binary main_v30 main_v33 main_v34 ((fun a b => concatenate S32x4x64x512 1 [⟨S32x3x64x512, a⟩, ⟨S32x1x64x512, b⟩] concatenates_S32x3x64x512_S32x1x64x512_S32x4x64x512_d1) : (⟨S32x3x64x512, .f32⟩ : BufTy).Contents (Elt F) → (⟨S32x1x64x512, .f32⟩ : BufTy).Contents (Elt F) → (⟨S32x4x64x512, .f32⟩ : BufTy).Contents (Elt F)),
    unary main_v34 main_v35 ((extractStridedSlice S32x4x48x512 ![0, 0, 0, 0] · slices_S32x4x64x512_S32x4x48x512_0_0_0_0) : (⟨S32x4x64x512, .f32⟩ : BufTy).Contents (Elt F) → (⟨S32x4x48x512, .f32⟩ : BufTy).Contents (Elt F)),
    reshape main_v35 main_v36 rfl shapeCasts_S32x4x48x512_S32x4x3x16x512,
    nullary main_cst_9 (constant S_ .f32 0xFF800000#32),
    binary main_v36 main_cst_9 main_v37 ((fun x v => Host.reduce FloatOps.maximumf x v reducesTo_S32x4x3x16x512_S32x4x3x512_d3 h_S_) : (⟨S32x4x3x16x512, .f32⟩ : BufTy).Contents (Elt F) → (⟨S_, .f32⟩ : BufTy).Contents (Elt F) → (⟨S32x4x3x512, .f32⟩ : BufTy).Contents (Elt F)),
    unary main_v34 main_v38 ((extractStridedSlice S32x4x16x512 ![0, 0, 48, 0] · slices_S32x4x64x512_S32x4x16x512_0_0_48_0) : (⟨S32x4x64x512, .f32⟩ : BufTy).Contents (Elt F) → (⟨S32x4x16x512, .f32⟩ : BufTy).Contents (Elt F)),
    nullary main_cst_10 (constant S_ .f32 0xFF800000#32),
    binary main_v38 main_cst_10 main_v39 ((fun x v => Host.reduce FloatOps.maximumf x v reducesTo_S32x4x16x512_S32x4x512_d2 h_S_) : (⟨S32x4x16x512, .f32⟩ : BufTy).Contents (Elt F) → (⟨S_, .f32⟩ : BufTy).Contents (Elt F) → (⟨S32x4x512, .f32⟩ : BufTy).Contents (Elt F)),
    unary main_v39 main_v40 (broadcastInDim S32x4x1x512 ![0, 1, 3] bcast_S32x4x512_S32x4x1x512_0_1_3 : (⟨S32x4x512, .f32⟩ : BufTy).Contents (Elt F) → (⟨S32x4x1x512, .f32⟩ : BufTy).Contents (Elt F)),
    binary main_v37 main_v40 main_v41 ((fun a b => concatenate S32x4x4x512 2 [⟨S32x4x3x512, a⟩, ⟨S32x4x1x512, b⟩] concatenates_S32x4x3x512_S32x4x1x512_S32x4x4x512_d2) : (⟨S32x4x3x512, .f32⟩ : BufTy).Contents (Elt F) → (⟨S32x4x1x512, .f32⟩ : BufTy).Contents (Elt F) → (⟨S32x4x4x512, .f32⟩ : BufTy).Contents (Elt F)),
    reshape main_v41 main_v42 rfl shapeCasts_S32x4x4x512_S32x8192 ]

/-- The operations of the 8 × 8 scale. -/
abbrev opsD : List (HloOp τ sig (Elt F)) :=
  [ unary main_arg0 main_v43 ((extractStridedSlice S32x56x64x512 ![0, 0, 0, 0] · slices_S32x64x64x512_S32x56x64x512_0_0_0_0) : (⟨S32x64x64x512, .f32⟩ : BufTy).Contents (Elt F) → (⟨S32x56x64x512, .f32⟩ : BufTy).Contents (Elt F)),
    reshape main_v43 main_v44 rfl shapeCasts_S32x56x64x512_S32x7x8x64x512,
    nullary main_cst_11 (constant S_ .f32 0xFF800000#32),
    binary main_v44 main_cst_11 main_v45 ((fun x v => Host.reduce FloatOps.maximumf x v reducesTo_S32x7x8x64x512_S32x7x64x512_d2 h_S_) : (⟨S32x7x8x64x512, .f32⟩ : BufTy).Contents (Elt F) → (⟨S_, .f32⟩ : BufTy).Contents (Elt F) → (⟨S32x7x64x512, .f32⟩ : BufTy).Contents (Elt F)),
    unary main_arg0 main_v46 ((extractStridedSlice S32x8x64x512 ![0, 56, 0, 0] · slices_S32x64x64x512_S32x8x64x512_0_56_0_0) : (⟨S32x64x64x512, .f32⟩ : BufTy).Contents (Elt F) → (⟨S32x8x64x512, .f32⟩ : BufTy).Contents (Elt F)),
    nullary main_cst_12 (constant S_ .f32 0xFF800000#32),
    binary main_v46 main_cst_12 main_v47 ((fun x v => Host.reduce FloatOps.maximumf x v reducesTo_S32x8x64x512_S32x64x512_d1 h_S_) : (⟨S32x8x64x512, .f32⟩ : BufTy).Contents (Elt F) → (⟨S_, .f32⟩ : BufTy).Contents (Elt F) → (⟨S32x64x512, .f32⟩ : BufTy).Contents (Elt F)),
    unary main_v47 main_v48 (broadcastInDim S32x1x64x512 ![0, 2, 3] bcast_S32x64x512_S32x1x64x512_0_2_3 : (⟨S32x64x512, .f32⟩ : BufTy).Contents (Elt F) → (⟨S32x1x64x512, .f32⟩ : BufTy).Contents (Elt F)),
    binary main_v45 main_v48 main_v49 ((fun a b => concatenate S32x8x64x512 1 [⟨S32x7x64x512, a⟩, ⟨S32x1x64x512, b⟩] concatenates_S32x7x64x512_S32x1x64x512_S32x8x64x512_d1) : (⟨S32x7x64x512, .f32⟩ : BufTy).Contents (Elt F) → (⟨S32x1x64x512, .f32⟩ : BufTy).Contents (Elt F) → (⟨S32x8x64x512, .f32⟩ : BufTy).Contents (Elt F)),
    unary main_v49 main_v50 ((extractStridedSlice S32x8x56x512 ![0, 0, 0, 0] · slices_S32x8x64x512_S32x8x56x512_0_0_0_0) : (⟨S32x8x64x512, .f32⟩ : BufTy).Contents (Elt F) → (⟨S32x8x56x512, .f32⟩ : BufTy).Contents (Elt F)),
    reshape main_v50 main_v51 rfl shapeCasts_S32x8x56x512_S32x8x7x8x512,
    nullary main_cst_13 (constant S_ .f32 0xFF800000#32),
    binary main_v51 main_cst_13 main_v52 ((fun x v => Host.reduce FloatOps.maximumf x v reducesTo_S32x8x7x8x512_S32x8x7x512_d3 h_S_) : (⟨S32x8x7x8x512, .f32⟩ : BufTy).Contents (Elt F) → (⟨S_, .f32⟩ : BufTy).Contents (Elt F) → (⟨S32x8x7x512, .f32⟩ : BufTy).Contents (Elt F)),
    unary main_v49 main_v53 ((extractStridedSlice S32x8x8x512 ![0, 0, 56, 0] · slices_S32x8x64x512_S32x8x8x512_0_0_56_0) : (⟨S32x8x64x512, .f32⟩ : BufTy).Contents (Elt F) → (⟨S32x8x8x512, .f32⟩ : BufTy).Contents (Elt F)),
    nullary main_cst_14 (constant S_ .f32 0xFF800000#32),
    binary main_v53 main_cst_14 main_v54 ((fun x v => Host.reduce FloatOps.maximumf x v reducesTo_S32x8x8x512_S32x8x512_d2 h_S_) : (⟨S32x8x8x512, .f32⟩ : BufTy).Contents (Elt F) → (⟨S_, .f32⟩ : BufTy).Contents (Elt F) → (⟨S32x8x512, .f32⟩ : BufTy).Contents (Elt F)),
    unary main_v54 main_v55 (broadcastInDim S32x8x1x512 ![0, 1, 3] bcast_S32x8x512_S32x8x1x512_0_1_3 : (⟨S32x8x512, .f32⟩ : BufTy).Contents (Elt F) → (⟨S32x8x1x512, .f32⟩ : BufTy).Contents (Elt F)),
    binary main_v52 main_v55 main_v56 ((fun a b => concatenate S32x8x8x512 2 [⟨S32x8x7x512, a⟩, ⟨S32x8x1x512, b⟩] concatenates_S32x8x7x512_S32x8x1x512_S32x8x8x512_d2) : (⟨S32x8x7x512, .f32⟩ : BufTy).Contents (Elt F) → (⟨S32x8x1x512, .f32⟩ : BufTy).Contents (Elt F) → (⟨S32x8x8x512, .f32⟩ : BufTy).Contents (Elt F)),
    reshape main_v56 main_v57 rfl shapeCasts_S32x8x8x512_S32x32768 ]

/-- The last operation: the four flattened tables joined along the last axis. -/
abbrev opJoin : HloOp τ sig (Elt F) :=
  nary ![main_v12, main_v27, main_v42, main_v57] main_v58 (fun u => concatenate S32x43520 1 [⟨S32x512, u 0⟩, ⟨S32x2048, u 1⟩, ⟨S32x8192, u 2⟩, ⟨S32x32768, u 3⟩] concatenates_S32x512_S32x2048_S32x8192_S32x32768_S32x43520_d1)

/-- @main's 75 operations. -/
abbrev ops : List (HloOp τ sig (Elt F)) := opsA ++ opsB ++ opsC ++ opsD ++ [opJoin]

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., nullary_bufs_sub .., binary_bufs_sub .., nullary_bufs_sub .., binary_bufs_sub .., unary_bufs_sub .., binary_bufs_sub .., unary_bufs_sub .., reshape_bufs_sub .., nullary_bufs_sub .., binary_bufs_sub .., nullary_bufs_sub .., binary_bufs_sub .., unary_bufs_sub .., binary_bufs_sub .., reshape_bufs_sub .., unary_bufs_sub .., reshape_bufs_sub .., nullary_bufs_sub .., binary_bufs_sub .., unary_bufs_sub .., nullary_bufs_sub .., binary_bufs_sub .., unary_bufs_sub .., binary_bufs_sub .., unary_bufs_sub .., reshape_bufs_sub .., nullary_bufs_sub .., binary_bufs_sub .., unary_bufs_sub .., nullary_bufs_sub .., binary_bufs_sub .., unary_bufs_sub .., binary_bufs_sub .., reshape_bufs_sub .., unary_bufs_sub .., reshape_bufs_sub .., nullary_bufs_sub .., binary_bufs_sub .., unary_bufs_sub .., nullary_bufs_sub .., binary_bufs_sub .., unary_bufs_sub .., binary_bufs_sub .., unary_bufs_sub .., reshape_bufs_sub .., nullary_bufs_sub .., binary_bufs_sub .., unary_bufs_sub .., nullary_bufs_sub .., binary_bufs_sub .., unary_bufs_sub .., binary_bufs_sub .., reshape_bufs_sub .., unary_bufs_sub .., reshape_bufs_sub .., nullary_bufs_sub .., binary_bufs_sub .., unary_bufs_sub .., nullary_bufs_sub .., binary_bufs_sub .., unary_bufs_sub .., binary_bufs_sub .., unary_bufs_sub .., reshape_bufs_sub .., nullary_bufs_sub .., binary_bufs_sub .., unary_bufs_sub .., nullary_bufs_sub .., binary_bufs_sub .., unary_bufs_sub .., binary_bufs_sub .., reshape_bufs_sub .., nary_bufs_sub ..⟩

/-- The contents after all 75 operations: the join applied to the contents after the four runs, one after the other. -/
theorem after_ops (V : Valuation τ sig (Elt F)) :
    after (ops (F := F)) V = (opJoin (F := F)).result (after opsD (after opsC (after opsB (after opsA V)))) := rfl

/-! ## Each run's table -/

set_option maxHeartbeats 30000000 in
/-- The one-bin run leaves its table in its last buffer. -/
theorem after_A_v12 (W : Valuation τ sig (Elt F)) :
    after (opsA (F := F)) W (Proc.devRef .tc main_v12) = flat1 (W (Proc.devRef .tc main_arg0)) := by
  after_results
  rfl

set_option maxHeartbeats 30000000 in
/-- The 2 × 2 run leaves its table in its last buffer. -/
theorem after_B_v27 (W : Valuation τ sig (Elt F)) :
    after (opsB (F := F)) W (Proc.devRef .tc main_v27) = flat2 (W (Proc.devRef .tc main_arg0)) := by
  after_results
  rfl

set_option maxHeartbeats 30000000 in
/-- The 4 × 4 run leaves its table in its last buffer. -/
theorem after_C_v42 (W : Valuation τ sig (Elt F)) :
    after (opsC (F := F)) W (Proc.devRef .tc main_v42) = flat4 (W (Proc.devRef .tc main_arg0)) := by
  after_results
  rfl

set_option maxHeartbeats 30000000 in
/-- The 8 × 8 run leaves its table in its last buffer. -/
theorem after_D_v57 (W : Valuation τ sig (Elt F)) :
    after (opsD (F := F)) W (Proc.devRef .tc main_v57) = flat8 (W (Proc.devRef .tc main_arg0)) := by
  after_results
  rfl

/-! ## What a run does not write -/

theorem after_A_arg0 (W : Valuation τ sig (Elt F)) :
    after (opsA (F := F)) W (Proc.devRef .tc main_arg0) = W (Proc.devRef .tc main_arg0) := by
  after_results_simp

theorem after_B_arg0 (W : Valuation τ sig (Elt F)) :
    after (opsB (F := F)) W (Proc.devRef .tc main_arg0) = W (Proc.devRef .tc main_arg0) := by
  after_results_simp

theorem after_C_arg0 (W : Valuation τ sig (Elt F)) :
    after (opsC (F := F)) W (Proc.devRef .tc main_arg0) = W (Proc.devRef .tc main_arg0) := by
  after_results_simp

theorem after_D_arg0 (W : Valuation τ sig (Elt F)) :
    after (opsD (F := F)) W (Proc.devRef .tc main_arg0) = W (Proc.devRef .tc main_arg0) := by
  after_results_simp

theorem after_B_v12 (W : Valuation τ sig (Elt F)) :
    after (opsB (F := F)) W (Proc.devRef .tc main_v12) = W (Proc.devRef .tc main_v12) := by
  after_results_simp

theorem after_C_v12 (W : Valuation τ sig (Elt F)) :
    after (opsC (F := F)) W (Proc.devRef .tc main_v12) = W (Proc.devRef .tc main_v12) := by
  after_results_simp

theorem after_D_v12 (W : Valuation τ sig (Elt F)) :
    after (opsD (F := F)) W (Proc.devRef .tc main_v12) = W (Proc.devRef .tc main_v12) := by
  after_results_simp

theorem after_C_v27 (W : Valuation τ sig (Elt F)) :
    after (opsC (F := F)) W (Proc.devRef .tc main_v27) = W (Proc.devRef .tc main_v27) := by
  after_results_simp

theorem after_D_v27 (W : Valuation τ sig (Elt F)) :
    after (opsD (F := F)) W (Proc.devRef .tc main_v27) = W (Proc.devRef .tc main_v27) := by
  after_results_simp

theorem after_D_v42 (W : Valuation τ sig (Elt F)) :
    after (opsD (F := F)) W (Proc.devRef .tc main_v42) = W (Proc.devRef .tc main_v42) := by
  after_results_simp

/-! ## The whole line -/

/-- The join of four arrays that are the four tables is the reference's result. -/
theorem join_eq (x : (⟨S32x64x64x512, .f32⟩ : BufTy).Contents (Elt F))
    (a : (⟨S32x512, .f32⟩ : BufTy).Contents (Elt F)) (b : (⟨S32x2048, .f32⟩ : BufTy).Contents (Elt F))
    (c : (⟨S32x8192, .f32⟩ : BufTy).Contents (Elt F)) (d : (⟨S32x32768, .f32⟩ : BufTy).Contents (Elt F))
    (ha : a = flat1 x) (hb : b = flat2 x) (hc : c = flat4 x) (hd : d = flat8 x) :
    concatenate S32x43520 1 [⟨S32x512, a⟩, ⟨S32x2048, b⟩, ⟨S32x8192, c⟩, ⟨S32x32768, d⟩]
      concatenates_S32x512_S32x2048_S32x8192_S32x32768_S32x43520_d1 = out x := by
  subst ha hb hc hd; rfl

/-- The result buffer after all 75 operations. -/
theorem after_v58 (V : Valuation τ sig (Elt F)) :
    after (ops (F := F)) V (Proc.devRef .tc main_v58) = out (V (Proc.devRef .tc main_arg0)) := by
  rw [after_ops]
  refine (nary4_result _ _ _ _).trans ?_
  exact join_eq _ _ _ _ _
    (by rw [after_D_v12, after_C_v12, after_B_v12, after_A_v12]; rfl)
    (by rw [after_D_v27, after_C_v27, after_B_v27, after_A_arg0]; rfl)
    (by rw [after_D_v42, after_C_v42, after_B_arg0, after_A_arg0]; rfl)
    (by rw [after_D_v57, after_C_arg0, after_B_arg0, after_A_arg0]; rfl)

/-- No operation writes the argument. -/
theorem after_arg0 (V : Valuation τ sig (Elt F)) :
    after (ops (F := F)) V (Proc.devRef .tc main_arg0) = V (Proc.devRef .tc main_arg0) := by
  rw [after_ops, nary_result_ne _ _ _ _ _ _ (by decide), after_D_arg0, after_C_arg0, after_B_arg0, after_A_arg0]

/-- On every device, for any float values, from any memory with zero counters: every weakly fair execution of
    @main terminates with the result at the four tables of the argument, side by side, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58) = out (m ((c.tc : Thread nD τ).loc main_arg0))
      ∧ r.2.mem ((c.tc : Thread nD τ).loc main_arg0) = m ((c.tc : Thread nD τ).loc main_arg0) :=
  (θ_run defs _ _).mono (fun _ h c => ⟨(h c main_v58).trans (after_v58 _), (h c main_arg0).trans (after_arg0 _)⟩)
    (run_seq scopedRefs_eq scopedSems_eq defs main (fun _ => ops) main_eq (fun _ => ops_sub) m ρ)

end Cert.ReferenceIdeal.RefRun

end
-- ==== Proof.LibPoolHost.lean ====
/-
  Host array operations of rank 4 and 5 read at coordinates, over variable extents: a slice along the second or third
  axis, the reshape that splits such an axis in two, the reduction by `max` over one axis as a running maximum over
  that axis's coordinates, the broadcast that re-inserts a unit axis, the two-piece concatenation along the second or
  third axis, and the reshape that flattens the three trailing axes.
-/
import Idealize.ShloMosaic.Lib.Pipeline.Value
import Idealize.ShloMosaic.Lib.ValueIdx
import Idealize.ShloMosaic.PureOps.Ideal.Laws

namespace Cert.LibPoolHost

open Idealize.ShloMosaic Idealize.ShloMosaic.ValueIdx

variable {α : Type}

/-! ## Slices -/

/-- A rank-4 array cut along its second axis from `o` reads, at `(b, i, w, c)`, the source at `(b, o + i, w, c)`. -/
theorem slice4_axis1 {B H W C m : ℕ} (o : ℕ) (x : (⟨4, ![B, H, W, C]⟩ : Shape).Idx → α)
    (h : (⟨4, ![B, H, W, C]⟩ : Shape).Slices ![0, o, 0, 0] ⟨4, ![B, m, W, C]⟩) (b : Fin B) (i : Fin m) (w : Fin W) (c : Fin C)
    (hi : o + i.val < H) :
    extractStridedSlice ⟨4, ![B, m, W, C]⟩ ![0, o, 0, 0] x h (ix4 b i w c) = x (ix4 b ⟨o + i.val, hi⟩ w c) :=
  extractStridedSlice_apply _ _ _ _ _ (fun ax => by
    match ax with
    | ⟨0, _⟩ => exact (Nat.zero_add _).symm
    | ⟨1, _⟩ => rfl
    | ⟨2, _⟩ => exact (Nat.zero_add _).symm
    | ⟨3, _⟩ => exact (Nat.zero_add _).symm)

/-- A rank-4 array cut along its third axis from `o` reads, at `(b, p, i, c)`, the source at `(b, p, o + i, c)`. -/
theorem slice4_axis2 {B P W C m : ℕ} (o : ℕ) (x : (⟨4, ![B, P, W, C]⟩ : Shape).Idx → α)
    (h : (⟨4, ![B, P, W, C]⟩ : Shape).Slices ![0, 0, o, 0] ⟨4, ![B, P, m, C]⟩) (b : Fin B) (p : Fin P) (i : Fin m) (c : Fin C)
    (hi : o + i.val < W) :
    extractStridedSlice ⟨4, ![B, P, m, C]⟩ ![0, 0, o, 0] x h (ix4 b p i c) = x (ix4 b p ⟨o + i.val, hi⟩ c) :=
  extractStridedSlice_apply _ _ _ _ _ (fun ax => by
    match ax with
    | ⟨0, _⟩ => exact (Nat.zero_add _).symm
    | ⟨1, _⟩ => exact (Nat.zero_add _).symm
    | ⟨2, _⟩ => rfl
    | ⟨3, _⟩ => exact (Nat.zero_add _).symm)

/-! ## Reshapes -/

/-- The reshape that splits the second axis `H = n k` of a rank-4 array into `(n, k)`: entry `(b, i, l, w, c)` is the
    source's `(b, i k + l, w, c)`. -/
theorem cast4to5_split1 {B H W C n k : ℕ} (x : (⟨4, ![B, H, W, C]⟩ : Shape).Idx → α)
    (h : (⟨4, ![B, H, W, C]⟩ : Shape).ShapeCasts ⟨5, ![B, n, k, W, C]⟩) (hH : H = n * k)
    (b : Fin B) (i : Fin n) (l : Fin k) (w : Fin W) (c : Fin C) (hi : i.val * k + l.val < H) :
    shapeCast ⟨5, ![B, n, k, W, C]⟩ x h (ix5 b i l w c) = x (ix4 b ⟨i.val * k + l.val, hi⟩ w c) :=
  shapeCast_apply x h _ _ (by
    rw [Shape.rowMajor_val_four, Shape.rowMajor_val_five]
    show ((b.val * H + (i.val * k + l.val)) * W + w.val) * C + c.val
      = (((b.val * n + i.val) * k + l.val) * W + w.val) * C + c.val
    subst hH; ring)

/-- The reshape that splits the third axis `W = n k` of a rank-4 array into `(n, k)`: entry `(b, p, i, l, c)` is the
    source's `(b, p, i k + l, c)`. -/
theorem cast4to5_split2 {B P W C n k : ℕ} (x : (⟨4, ![B, P, W, C]⟩ : Shape).Idx → α)
    (h : (⟨4, ![B, P, W, C]⟩ : Shape).ShapeCasts ⟨5, ![B, P, n, k, C]⟩) (hW : W = n * k)
    (b : Fin B) (p : Fin P) (i : Fin n) (l : Fin k) (c : Fin C) (hi : i.val * k + l.val < W) :
    shapeCast ⟨5, ![B, P, n, k, C]⟩ x h (ix5 b p i l c) = x (ix4 b p ⟨i.val * k + l.val, hi⟩ c) :=
  shapeCast_apply x h _ _ (by
    rw [Shape.rowMajor_val_four, Shape.rowMajor_val_five]
    show ((b.val * P + p.val) * W + (i.val * k + l.val)) * C + c.val
      = (((b.val * P + p.val) * n + i.val) * k + l.val) * C + c.val
    subst hW; ring)

/-- The reshape that flattens the three trailing axes of a rank-4 array: entry `(b, (i Q + j) C + c)` of the result is the
    source's `(b, i, j, c)`. -/
theorem cast4to2_flat {B P Q C N : ℕ} (x : (⟨4, ![B, P, Q, C]⟩ : Shape).Idx → α)
    (h : (⟨4, ![B, P, Q, C]⟩ : Shape).ShapeCasts ⟨2, ![B, N]⟩) (hN : N = P * Q * C)
    (b : Fin B) (i : Fin P) (j : Fin Q) (c : Fin C) (hn : (i.val * Q + j.val) * C + c.val < N) :
    shapeCast ⟨2, ![B, N]⟩ x h (ix2 b ⟨(i.val * Q + j.val) * C + c.val, hn⟩) = x (ix4 b i j c) :=
  shapeCast_apply x h _ _ (by
    rw [Shape.rowMajor_val_four, Shape.rowMajor_val_two]
    show ((b.val * P + i.val) * Q + j.val) * C + c.val = b.val * N + ((i.val * Q + j.val) * C + c.val)
    subst hN; ring)

/-! ## Maxima over one axis -/

/-- The reduction by `max` over the third axis of a rank-5 array of extended reals, at `(b, i, w, c)`: the running maximum
    from the initial value over that axis. -/
theorem hostMax5_axis2 {B n k W C : ℕ} {u : Shape} (x : FVec Ideal ⟨5, ![B, n, k, W, C]⟩ .f32) (init : u.Idx → EReal)
    (h' : (⟨5, ![B, n, k, W, C]⟩ : Shape).ReducesTo [2] ⟨4, ![B, n, W, C]⟩)
    (h : (⟨5, ![B, n, k, W, C]⟩ : Shape).Reduces [2] ⟨4, ![B, n, W, C]⟩)
    (hu : 0 < u.numel) (b : Fin B) (i : Fin n) (w : Fin W) (c : Fin C) :
    Host.reduce FloatOps.maximumf x init h' hu (ix4 b i w c)
      = (Finset.univ : Finset (Fin k)).fold max (init (Shape.Idx.first hu)) (fun l => x (ix5 b i l w c)) := by
  rw [Host.reduce_eq_fold_single FloatOps.maximumf x init h' h hu]
  refine congrArg (Finset.fold max (init (Shape.Idx.first hu)) · Finset.univ) (funext fun l => ?_)
  exact congrArg x (funext fun ax => Fin.ext (by
    match ax with | ⟨0, _⟩ => rfl | ⟨1, _⟩ => rfl | ⟨2, _⟩ => rfl | ⟨3, _⟩ => rfl | ⟨4, _⟩ => rfl))

/-- The same over the fourth axis, at `(b, p, i, c)`. -/
theorem hostMax5_axis3 {B P n k C : ℕ} {u : Shape} (x : FVec Ideal ⟨5, ![B, P, n, k, C]⟩ .f32) (init : u.Idx → EReal)
    (h' : (⟨5, ![B, P, n, k, C]⟩ : Shape).ReducesTo [3] ⟨4, ![B, P, n, C]⟩)
    (h : (⟨5, ![B, P, n, k, C]⟩ : Shape).Reduces [3] ⟨4, ![B, P, n, C]⟩)
    (hu : 0 < u.numel) (b : Fin B) (p : Fin P) (i : Fin n) (c : Fin C) :
    Host.reduce FloatOps.maximumf x init h' hu (ix4 b p i c)
      = (Finset.univ : Finset (Fin k)).fold max (init (Shape.Idx.first hu)) (fun l => x (ix5 b p i l c)) := by
  rw [Host.reduce_eq_fold_single FloatOps.maximumf x init h' h hu]
  refine congrArg (Finset.fold max (init (Shape.Idx.first hu)) · Finset.univ) (funext fun l => ?_)
  exact congrArg x (funext fun ax => Fin.ext (by
    match ax with | ⟨0, _⟩ => rfl | ⟨1, _⟩ => rfl | ⟨2, _⟩ => rfl | ⟨3, _⟩ => rfl | ⟨4, _⟩ => rfl))

/-- The reduction by `max` over the second axis of a rank-4 array, at `(b, w, c)`. -/
theorem hostMax4_axis1 {B k W C : ℕ} {u : Shape} (x : FVec Ideal ⟨4, ![B, k, W, C]⟩ .f32) (init : u.Idx → EReal)
    (h' : (⟨4, ![B, k, W, C]⟩ : Shape).ReducesTo [1] ⟨3, ![B, W, C]⟩)
    (h : (⟨4, ![B, k, W, C]⟩ : Shape).Reduces [1] ⟨3, ![B, W, C]⟩)
    (hu : 0 < u.numel) (b : Fin B) (w : Fin W) (c : Fin C) :
    Host.reduce FloatOps.maximumf x init h' hu (ix3 b w c)
      = (Finset.univ : Finset (Fin k)).fold max (init (Shape.Idx.first hu)) (fun l => x (ix4 b l w c)) := by
  rw [Host.reduce_eq_fold_single FloatOps.maximumf x init h' h hu]
  refine congrArg (Finset.fold max (init (Shape.Idx.first hu)) · Finset.univ) (funext fun l => ?_)
  exact congrArg x (funext fun ax => Fin.ext (by
    match ax with | ⟨0, _⟩ => rfl | ⟨1, _⟩ => rfl | ⟨2, _⟩ => rfl | ⟨3, _⟩ => rfl))

/-- The reduction by `max` over the third axis of a rank-4 array, at `(b, p, c)`. -/
theorem hostMax4_axis2 {B P k C : ℕ} {u : Shape} (x : FVec Ideal ⟨4, ![B, P, k, C]⟩ .f32) (init : u.Idx → EReal)
    (h' : (⟨4, ![B, P, k, C]⟩ : Shape).ReducesTo [2] ⟨3, ![B, P, C]⟩)
    (h : (⟨4, ![B, P, k, C]⟩ : Shape).Reduces [2] ⟨3, ![B, P, C]⟩)
    (hu : 0 < u.numel) (b : Fin B) (p : Fin P) (c : Fin C) :
    Host.reduce FloatOps.maximumf x init h' hu (ix3 b p c)
      = (Finset.univ : Finset (Fin k)).fold max (init (Shape.Idx.first hu)) (fun l => x (ix4 b p l c)) := by
  rw [Host.reduce_eq_fold_single FloatOps.maximumf x init h' h hu]
  refine congrArg (Finset.fold max (init (Shape.Idx.first hu)) · Finset.univ) (funext fun l => ?_)
  exact congrArg x (funext fun ax => Fin.ext (by
    match ax with | ⟨0, _⟩ => rfl | ⟨1, _⟩ => rfl | ⟨2, _⟩ => rfl | ⟨3, _⟩ => rfl))

/-! ## Re-inserting a unit axis -/

/-- A rank-3 array broadcast to a unit second axis reads, at `(b, i, w, c)`, the source at `(b, w, c)`. -/
theorem bcast3to4_axis1 {B W C : ℕ} (x : (⟨3, ![B, W, C]⟩ : Shape).Idx → α)
    (h : (⟨3, ![B, W, C]⟩ : Shape).BroadcastsInDim ⟨4, ![B, 1, W, C]⟩ ![0, 2, 3]) (b : Fin B) (i : Fin 1) (w : Fin W) (c : Fin C) :
    broadcastInDim ⟨4, ![B, 1, W, C]⟩ ![0, 2, 3] h x (ix4 b i w c) = x (ix3 b w c) :=
  broadcastInDim_apply _ h x _ _ (fun a => by
    match a with
    | ⟨0, _⟩ => show b.val = if B = 1 then 0 else b.val; have := b.isLt; split <;> omega
    | ⟨1, _⟩ => show w.val = if W = 1 then 0 else w.val; have := w.isLt; split <;> omega
    | ⟨2, _⟩ => show c.val = if C = 1 then 0 else c.val; have := c.isLt; split <;> omega)

/-- A rank-3 array broadcast to a unit third axis reads, at `(b, p, i, c)`, the source at `(b, p, c)`. -/
theorem bcast3to4_axis2 {B P C : ℕ} (x : (⟨3, ![B, P, C]⟩ : Shape).Idx → α)
    (h : (⟨3, ![B, P, C]⟩ : Shape).BroadcastsInDim ⟨4, ![B, P, 1, C]⟩ ![0, 1, 3]) (b : Fin B) (p : Fin P) (i : Fin 1) (c : Fin C) :
    broadcastInDim ⟨4, ![B, P, 1, C]⟩ ![0, 1, 3] h x (ix4 b p i c) = x (ix3 b p c) :=
  broadcastInDim_apply _ h x _ _ (fun a => by
    match a with
    | ⟨0, _⟩ => show b.val = if B = 1 then 0 else b.val; have := b.isLt; split <;> omega
    | ⟨1, _⟩ => show p.val = if P = 1 then 0 else p.val; have := p.isLt; split <;> omega
    | ⟨2, _⟩ => show c.val = if C = 1 then 0 else c.val; have := c.isLt; split <;> omega)

/-! ## Two pieces laid end to end -/

/-- Two rank-4 arrays joined along the second axis: below the first's extent the joint array reads the first. -/
theorem concat4_axis1_left {B n₁ n₂ n W C : ℕ} (x₁ : (⟨4, ![B, n₁, W, C]⟩ : Shape).Idx → α) (x₂ : (⟨4, ![B, n₂, W, C]⟩ : Shape).Idx → α)
    (h : Shape.Concatenates [⟨4, ![B, n₁, W, C]⟩, ⟨4, ![B, n₂, W, C]⟩] ⟨4, ![B, n, W, C]⟩ 1)
    (b : Fin B) (i : Fin n) (w : Fin W) (c : Fin C) (hi : i.val < n₁) :
    concatenate ⟨4, ![B, n, W, C]⟩ 1 [⟨⟨4, ![B, n₁, W, C]⟩, x₁⟩, ⟨⟨4, ![B, n₂, W, C]⟩, x₂⟩] h (ix4 b i w c)
      = x₁ (ix4 b ⟨i.val, hi⟩ w c) :=
  concatenate_pair_apply_left 1 x₁ x₂ h _ rfl _ (fun ax => by
    match ax with | ⟨0, _⟩ => rfl | ⟨1, _⟩ => rfl | ⟨2, _⟩ => rfl | ⟨3, _⟩ => rfl)

/-- … and from the first's extent on it reads the second, that extent less. -/
theorem concat4_axis1_right {B n₁ n₂ n W C : ℕ} (x₁ : (⟨4, ![B, n₁, W, C]⟩ : Shape).Idx → α) (x₂ : (⟨4, ![B, n₂, W, C]⟩ : Shape).Idx → α)
    (h : Shape.Concatenates [⟨4, ![B, n₁, W, C]⟩, ⟨4, ![B, n₂, W, C]⟩] ⟨4, ![B, n, W, C]⟩ 1)
    (b : Fin B) (i : Fin n) (w : Fin W) (c : Fin C) (hi : n₁ ≤ i.val) (hi2 : i.val - n₁ < n₂) :
    concatenate ⟨4, ![B, n, W, C]⟩ 1 [⟨⟨4, ![B, n₁, W, C]⟩, x₁⟩, ⟨⟨4, ![B, n₂, W, C]⟩, x₂⟩] h (ix4 b i w c)
      = x₂ (ix4 b ⟨i.val - n₁, hi2⟩ w c) :=
  concatenate_pair_apply_right 1 x₁ x₂ h _ rfl rfl _ (fun ax hax => by
    match ax with
    | ⟨0, _⟩ => rfl
    | ⟨1, _⟩ => exact absurd rfl hax
    | ⟨2, _⟩ => rfl
    | ⟨3, _⟩ => rfl)
    (by show (i.val - n₁) + n₁ = i.val; omega)

/-- Two rank-4 arrays joined along the third axis: below the first's extent the joint array reads the first. -/
theorem concat4_axis2_left {B P n₁ n₂ n C : ℕ} (x₁ : (⟨4, ![B, P, n₁, C]⟩ : Shape).Idx → α) (x₂ : (⟨4, ![B, P, n₂, C]⟩ : Shape).Idx → α)
    (h : Shape.Concatenates [⟨4, ![B, P, n₁, C]⟩, ⟨4, ![B, P, n₂, C]⟩] ⟨4, ![B, P, n, C]⟩ 2)
    (b : Fin B) (p : Fin P) (i : Fin n) (c : Fin C) (hi : i.val < n₁) :
    concatenate ⟨4, ![B, P, n, C]⟩ 2 [⟨⟨4, ![B, P, n₁, C]⟩, x₁⟩, ⟨⟨4, ![B, P, n₂, C]⟩, x₂⟩] h (ix4 b p i c)
      = x₁ (ix4 b p ⟨i.val, hi⟩ c) :=
  concatenate_pair_apply_left 2 x₁ x₂ h _ rfl _ (fun ax => by
    match ax with | ⟨0, _⟩ => rfl | ⟨1, _⟩ => rfl | ⟨2, _⟩ => rfl | ⟨3, _⟩ => rfl)

/-- … and from the first's extent on it reads the second, that extent less. -/
theorem concat4_axis2_right {B P n₁ n₂ n C : ℕ} (x₁ : (⟨4, ![B, P, n₁, C]⟩ : Shape).Idx → α) (x₂ : (⟨4, ![B, P, n₂, C]⟩ : Shape).Idx → α)
    (h : Shape.Concatenates [⟨4, ![B, P, n₁, C]⟩, ⟨4, ![B, P, n₂, C]⟩] ⟨4, ![B, P, n, C]⟩ 2)
    (b : Fin B) (p : Fin P) (i : Fin n) (c : Fin C) (hi : n₁ ≤ i.val) (hi2 : i.val - n₁ < n₂) :
    concatenate ⟨4, ![B, P, n, C]⟩ 2 [⟨⟨4, ![B, P, n₁, C]⟩, x₁⟩, ⟨⟨4, ![B, P, n₂, C]⟩, x₂⟩] h (ix4 b p i c)
      = x₂ (ix4 b p ⟨i.val - n₁, hi2⟩ c) :=
  concatenate_pair_apply_right 2 x₁ x₂ h _ rfl rfl _ (fun ax hax => by
    match ax with
    | ⟨0, _⟩ => rfl
    | ⟨1, _⟩ => rfl
    | ⟨2, _⟩ => exact absurd rfl hax
    | ⟨3, _⟩ => rfl)
    (by show (i.val - n₁) + n₁ = i.val; omega)

end Cert.LibPoolHost
-- ==== Proof.RefPool1.lean ====
/-
  The reference's table at the scale of one bin: the leading piece of either pooling step is empty, and the bin is the
  running maximum over all 64 rows, then over all 64 columns.
-/
import proofs.«104218_j23235773071813_2_alg».proof.Proof.RefStages
import proofs.«104218_j23235773071813_2_alg».proof.Proof.LibPoolHost
import proofs.«104218_j23235773071813_2_alg».proof.Proof.PoolSpec

noncomputable section

namespace Cert.ReferenceIdeal.Stages

open Cert.ReferenceIdeal Cert.ReferenceIdeal.Gen Idealize.ShloMosaic Idealize.ShloMosaic.ValueIdx Cert.LibPoolHost Cert.Pool

/-- Rows: the one bin at column `w` is the largest of all 64 rows there. -/
theorem rows1_apply (x : Img) (b : Fin 32) (i : Fin 1) (w : Fin 64) (c : Fin 512) :
    rows1 (F := Ideal) x (ix4 b i w c)
      = (Finset.univ : Finset (Fin 64)).fold max ⊥ (fun l => x (ix4 b l w c)) := by
  unfold rows1
  refine (concat4_axis1_right _ _ _ b i w c (Nat.zero_le _) (by omega)).trans ?_
  refine (bcast3to4_axis1 _ _ b _ w c).trans ?_
  refine (hostMax4_axis1 _ _ _ (by decide) _ b w c).trans ?_
  exact congrArg₂ (fun a f => Finset.fold max a f Finset.univ) ofBits_negInf rfl

/-- Columns: the one bin is the largest, over all 64 columns, of the row bin. -/
theorem bins1_apply (x : Img) (b : Fin 32) (i j : Fin 1) (c : Fin 512) :
    bins1 (F := Ideal) x (ix4 b i j c)
      = (Finset.univ : Finset (Fin 64)).fold max ⊥ (fun l => rows1 (F := Ideal) x (ix4 b i l c)) := by
  unfold bins1
  refine (concat4_axis2_right _ _ _ b i j c (Nat.zero_le _) (by omega)).trans ?_
  refine (bcast3to4_axis2 _ _ b i _ c).trans ?_
  refine (hostMax4_axis2 _ _ _ (by decide) _ b i c).trans ?_
  exact congrArg₂ (fun a f => Finset.fold max a f Finset.univ) ofBits_negInf rfl

/-- The bin is the largest entry of the whole 64 × 64 image. -/
theorem bins1_eq_binMax (x : Img) (b : Fin 32) (i j : Fin 1) (c : Fin 512) :
    bins1 (F := Ideal) x (ix4 b i j c) = binMax x b c 64 i.val j.val := by
  refine eq_of_upper fun z => ?_
  rw [bins1_apply, foldMax_le_iff, binMax_le_iff]
  simp only [rows1_apply, foldMax_le_iff]
  constructor
  · intro H h w _ _
    exact H w h
  · intro H l k
    exact H k l (by have := k.isLt; have := i.isLt; omega) (by have := l.isLt; have := j.isLt; omega)

/-- The flattened table: entry `c` of image `b`'s row is the bin in channel `c`. -/
theorem flat1_apply (x : Img) (b : Fin 32) (i j : Fin 1) (c : Fin 512) (hn : (i.val * 1 + j.val) * 512 + c.val < 512) :
    flat1 (F := Ideal) x (ix2 b ⟨(i.val * 1 + j.val) * 512 + c.val, hn⟩) = binMax x b c 64 i.val j.val := by
  unfold flat1
  exact (cast4to2_flat _ _ (by norm_num) b i j c hn).trans (bins1_eq_binMax x b i j c)

end Cert.ReferenceIdeal.Stages

end
-- ==== Proof.RefPool2.lean ====
/-
  The reference's table at the scale of 2 bins per side, read at coordinates: a bin of rows is the running maximum over
  its 32 rows, a bin of columns the running maximum over its 32 columns, whichever of the two pieces the bin comes from.
-/
import proofs.«104218_j23235773071813_2_alg».proof.Proof.RefStages
import proofs.«104218_j23235773071813_2_alg».proof.Proof.LibPoolHost
import proofs.«104218_j23235773071813_2_alg».proof.Proof.PoolSpec

noncomputable section

namespace Cert.ReferenceIdeal.Stages

open Cert.ReferenceIdeal Cert.ReferenceIdeal.Gen Idealize.ShloMosaic Idealize.ShloMosaic.ValueIdx Cert.LibPoolHost Cert.Pool

/-- Rows: bin `i` at column `w` is the largest of rows `32 i … 32 i + 31` there. -/
theorem rows2_apply (x : Img) (b : Fin 32) (i : Fin 2) (w : Fin 64) (c : Fin 512) :
    rows2 (F := Ideal) x (ix4 b i w c)
      = (Finset.univ : Finset (Fin 32)).fold max ⊥ (fun l => x (ix4 b ⟨i.val * 32 + l.val, by omega⟩ w c)) := by
  unfold rows2
  by_cases hi : i.val < 1
  · refine (concat4_axis1_left _ _ _ b i w c hi).trans ?_
    refine (hostMax5_axis2 _ _ _ (by decide) _ b ⟨i.val, hi⟩ w c).trans ?_
    refine congrArg₂ (fun a f => Finset.fold max a f Finset.univ) ofBits_negInf (funext fun l => ?_)
    refine (cast4to5_split1 _ _ (by norm_num) b ⟨i.val, hi⟩ l w c (by show i.val * 32 + l.val < 32; omega)).trans ?_
    refine (slice4_axis1 0 _ _ b _ w c (by show 0 + (i.val * 32 + l.val) < 64; omega)).trans ?_
    exact congrArg (fun t => x (ix4 b t w c)) (Fin.ext (Nat.zero_add _))
  · have hi7 : i.val = 1 := by omega
    refine (concat4_axis1_right _ _ _ b i w c (by omega) (by omega)).trans ?_
    refine (bcast3to4_axis1 _ _ b _ w c).trans ?_
    refine (hostMax4_axis1 _ _ _ (by decide) _ b w c).trans ?_
    refine congrArg₂ (fun a f => Finset.fold max a f Finset.univ) ofBits_negInf (funext fun l => ?_)
    refine (slice4_axis1 32 _ _ b l w c (by omega)).trans ?_
    exact congrArg (fun t => x (ix4 b t w c)) (Fin.ext (by show 32 + l.val = i.val * 32 + l.val; omega))

/-- Columns: bin `(i, j)` is the largest, over columns `32 j … 32 j + 31`, of the row bin `i`. -/
theorem bins2_apply (x : Img) (b : Fin 32) (i j : Fin 2) (c : Fin 512) :
    bins2 (F := Ideal) x (ix4 b i j c)
      = (Finset.univ : Finset (Fin 32)).fold max ⊥ (fun l => rows2 (F := Ideal) x (ix4 b i ⟨j.val * 32 + l.val, by omega⟩ c)) := by
  unfold bins2
  by_cases hj : j.val < 1
  · refine (concat4_axis2_left _ _ _ b i j c hj).trans ?_
    refine (hostMax5_axis3 _ _ _ (by decide) _ b i ⟨j.val, hj⟩ c).trans ?_
    refine congrArg₂ (fun a f => Finset.fold max a f Finset.univ) ofBits_negInf (funext fun l => ?_)
    refine (cast4to5_split2 _ _ (by norm_num) b i ⟨j.val, hj⟩ l c (by show j.val * 32 + l.val < 32; omega)).trans ?_
    refine (slice4_axis2 0 _ _ b i _ c (by show 0 + (j.val * 32 + l.val) < 64; omega)).trans ?_
    exact congrArg (fun t => rows2 (F := Ideal) x (ix4 b i t c)) (Fin.ext (Nat.zero_add _))
  · have hj7 : j.val = 1 := by omega
    refine (concat4_axis2_right _ _ _ b i j c (by omega) (by omega)).trans ?_
    refine (bcast3to4_axis2 _ _ b i _ c).trans ?_
    refine (hostMax4_axis2 _ _ _ (by decide) _ b i c).trans ?_
    refine congrArg₂ (fun a f => Finset.fold max a f Finset.univ) ofBits_negInf (funext fun l => ?_)
    refine (slice4_axis2 32 _ _ b i l c (by omega)).trans ?_
    exact congrArg (fun t => rows2 (F := Ideal) x (ix4 b i t c)) (Fin.ext (by show 32 + l.val = j.val * 32 + l.val; omega))

/-- A bin of the table is the largest entry of its 32 × 32 pixels. -/
theorem bins2_eq_binMax (x : Img) (b : Fin 32) (i j : Fin 2) (c : Fin 512) :
    bins2 (F := Ideal) x (ix4 b i j c) = binMax x b c 32 i.val j.val := by
  refine eq_of_upper fun z => ?_
  rw [bins2_apply, foldMax_le_iff, binMax_le_iff]
  simp only [rows2_apply, foldMax_le_iff]
  constructor
  · intro H h w hh hw
    have e := H ⟨w.val % 32, Nat.mod_lt _ (by norm_num)⟩ ⟨h.val % 32, Nat.mod_lt _ (by norm_num)⟩
    have e1 : (⟨i.val * 32 + h.val % 32, by omega⟩ : Fin 64) = h := Fin.ext (by show i.val * 32 + h.val % 32 = h.val; omega)
    have e2 : (⟨j.val * 32 + w.val % 32, by omega⟩ : Fin 64) = w := Fin.ext (by show j.val * 32 + w.val % 32 = w.val; omega)
    rw [e1, e2] at e
    exact e
  · intro H l k
    exact H _ _ (by show (i.val * 32 + k.val) / 32 = i.val; omega) (by show (j.val * 32 + l.val) / 32 = j.val; omega)

/-- The flattened table: entry `(i 2 + j) 512 + c` of image `b`'s row is bin `(i, j)` in channel `c`. -/
theorem flat2_apply (x : Img) (b : Fin 32) (i j : Fin 2) (c : Fin 512) (hn : (i.val * 2 + j.val) * 512 + c.val < 2048) :
    flat2 (F := Ideal) x (ix2 b ⟨(i.val * 2 + j.val) * 512 + c.val, hn⟩) = binMax x b c 32 i.val j.val := by
  unfold flat2
  exact (cast4to2_flat _ _ (by norm_num) b i j c hn).trans (bins2_eq_binMax x b i j c)

end Cert.ReferenceIdeal.Stages

end
-- ==== Proof.RefPool4.lean ====
/-
  The reference's table at the scale of 4 bins per side, read at coordinates: a bin of rows is the running maximum over
  its 16 rows, a bin of columns the running maximum over its 16 columns, whichever of the two pieces the bin comes from.
-/
import proofs.«104218_j23235773071813_2_alg».proof.Proof.RefStages
import proofs.«104218_j23235773071813_2_alg».proof.Proof.LibPoolHost
import proofs.«104218_j23235773071813_2_alg».proof.Proof.PoolSpec

noncomputable section

namespace Cert.ReferenceIdeal.Stages

open Cert.ReferenceIdeal Cert.ReferenceIdeal.Gen Idealize.ShloMosaic Idealize.ShloMosaic.ValueIdx Cert.LibPoolHost Cert.Pool

/-- Rows: bin `i` at column `w` is the largest of rows `16 i … 16 i + 15` there. -/
theorem rows4_apply (x : Img) (b : Fin 32) (i : Fin 4) (w : Fin 64) (c : Fin 512) :
    rows4 (F := Ideal) x (ix4 b i w c)
      = (Finset.univ : Finset (Fin 16)).fold max ⊥ (fun l => x (ix4 b ⟨i.val * 16 + l.val, by omega⟩ w c)) := by
  unfold rows4
  by_cases hi : i.val < 3
  · refine (concat4_axis1_left _ _ _ b i w c hi).trans ?_
    refine (hostMax5_axis2 _ _ _ (by decide) _ b ⟨i.val, hi⟩ w c).trans ?_
    refine congrArg₂ (fun a f => Finset.fold max a f Finset.univ) ofBits_negInf (funext fun l => ?_)
    refine (cast4to5_split1 _ _ (by norm_num) b ⟨i.val, hi⟩ l w c (by show i.val * 16 + l.val < 48; omega)).trans ?_
    refine (slice4_axis1 0 _ _ b _ w c (by show 0 + (i.val * 16 + l.val) < 64; omega)).trans ?_
    exact congrArg (fun t => x (ix4 b t w c)) (Fin.ext (Nat.zero_add _))
  · have hi7 : i.val = 3 := by omega
    refine (concat4_axis1_right _ _ _ b i w c (by omega) (by omega)).trans ?_
    refine (bcast3to4_axis1 _ _ b _ w c).trans ?_
    refine (hostMax4_axis1 _ _ _ (by decide) _ b w c).trans ?_
    refine congrArg₂ (fun a f => Finset.fold max a f Finset.univ) ofBits_negInf (funext fun l => ?_)
    refine (slice4_axis1 48 _ _ b l w c (by omega)).trans ?_
    exact congrArg (fun t => x (ix4 b t w c)) (Fin.ext (by show 48 + l.val = i.val * 16 + l.val; omega))

/-- Columns: bin `(i, j)` is the largest, over columns `16 j … 16 j + 15`, of the row bin `i`. -/
theorem bins4_apply (x : Img) (b : Fin 32) (i j : Fin 4) (c : Fin 512) :
    bins4 (F := Ideal) x (ix4 b i j c)
      = (Finset.univ : Finset (Fin 16)).fold max ⊥ (fun l => rows4 (F := Ideal) x (ix4 b i ⟨j.val * 16 + l.val, by omega⟩ c)) := by
  unfold bins4
  by_cases hj : j.val < 3
  · refine (concat4_axis2_left _ _ _ b i j c hj).trans ?_
    refine (hostMax5_axis3 _ _ _ (by decide) _ b i ⟨j.val, hj⟩ c).trans ?_
    refine congrArg₂ (fun a f => Finset.fold max a f Finset.univ) ofBits_negInf (funext fun l => ?_)
    refine (cast4to5_split2 _ _ (by norm_num) b i ⟨j.val, hj⟩ l c (by show j.val * 16 + l.val < 48; omega)).trans ?_
    refine (slice4_axis2 0 _ _ b i _ c (by show 0 + (j.val * 16 + l.val) < 64; omega)).trans ?_
    exact congrArg (fun t => rows4 (F := Ideal) x (ix4 b i t c)) (Fin.ext (Nat.zero_add _))
  · have hj7 : j.val = 3 := by omega
    refine (concat4_axis2_right _ _ _ b i j c (by omega) (by omega)).trans ?_
    refine (bcast3to4_axis2 _ _ b i _ c).trans ?_
    refine (hostMax4_axis2 _ _ _ (by decide) _ b i c).trans ?_
    refine congrArg₂ (fun a f => Finset.fold max a f Finset.univ) ofBits_negInf (funext fun l => ?_)
    refine (slice4_axis2 48 _ _ b i l c (by omega)).trans ?_
    exact congrArg (fun t => rows4 (F := Ideal) x (ix4 b i t c)) (Fin.ext (by show 48 + l.val = j.val * 16 + l.val; omega))

/-- A bin of the table is the largest entry of its 16 × 16 pixels. -/
theorem bins4_eq_binMax (x : Img) (b : Fin 32) (i j : Fin 4) (c : Fin 512) :
    bins4 (F := Ideal) x (ix4 b i j c) = binMax x b c 16 i.val j.val := by
  refine eq_of_upper fun z => ?_
  rw [bins4_apply, foldMax_le_iff, binMax_le_iff]
  simp only [rows4_apply, foldMax_le_iff]
  constructor
  · intro H h w hh hw
    have e := H ⟨w.val % 16, Nat.mod_lt _ (by norm_num)⟩ ⟨h.val % 16, Nat.mod_lt _ (by norm_num)⟩
    have e1 : (⟨i.val * 16 + h.val % 16, by omega⟩ : Fin 64) = h := Fin.ext (by show i.val * 16 + h.val % 16 = h.val; omega)
    have e2 : (⟨j.val * 16 + w.val % 16, by omega⟩ : Fin 64) = w := Fin.ext (by show j.val * 16 + w.val % 16 = w.val; omega)
    rw [e1, e2] at e
    exact e
  · intro H l k
    exact H _ _ (by show (i.val * 16 + k.val) / 16 = i.val; omega) (by show (j.val * 16 + l.val) / 16 = j.val; omega)

/-- The flattened table: entry `(i 4 + j) 512 + c` of image `b`'s row is bin `(i, j)` in channel `c`. -/
theorem flat4_apply (x : Img) (b : Fin 32) (i j : Fin 4) (c : Fin 512) (hn : (i.val * 4 + j.val) * 512 + c.val < 8192) :
    flat4 (F := Ideal) x (ix2 b ⟨(i.val * 4 + j.val) * 512 + c.val, hn⟩) = binMax x b c 16 i.val j.val := by
  unfold flat4
  exact (cast4to2_flat _ _ (by norm_num) b i j c hn).trans (bins4_eq_binMax x b i j c)

end Cert.ReferenceIdeal.Stages

end
-- ==== Proof.RefPool8.lean ====
/-
  The reference's table at the scale of 8 bins per side, read at coordinates: a bin of rows is the running maximum over
  its 8 rows, a bin of columns the running maximum over its 8 columns, whichever of the two pieces the bin comes from.
-/
import proofs.«104218_j23235773071813_2_alg».proof.Proof.RefStages
import proofs.«104218_j23235773071813_2_alg».proof.Proof.LibPoolHost
import proofs.«104218_j23235773071813_2_alg».proof.Proof.PoolSpec

noncomputable section

namespace Cert.ReferenceIdeal.Stages

open Cert.ReferenceIdeal Cert.ReferenceIdeal.Gen Idealize.ShloMosaic Idealize.ShloMosaic.ValueIdx Cert.LibPoolHost Cert.Pool

/-- Rows: bin `i` at column `w` is the largest of rows `8 i … 8 i + 7` there. -/
theorem rows8_apply (x : Img) (b : Fin 32) (i : Fin 8) (w : Fin 64) (c : Fin 512) :
    rows8 (F := Ideal) x (ix4 b i w c)
      = (Finset.univ : Finset (Fin 8)).fold max ⊥ (fun l => x (ix4 b ⟨i.val * 8 + l.val, by omega⟩ w c)) := by
  unfold rows8
  by_cases hi : i.val < 7
  · refine (concat4_axis1_left _ _ _ b i w c hi).trans ?_
    refine (hostMax5_axis2 _ _ _ (by decide) _ b ⟨i.val, hi⟩ w c).trans ?_
    refine congrArg₂ (fun a f => Finset.fold max a f Finset.univ) ofBits_negInf (funext fun l => ?_)
    refine (cast4to5_split1 _ _ (by norm_num) b ⟨i.val, hi⟩ l w c (by show i.val * 8 + l.val < 56; omega)).trans ?_
    refine (slice4_axis1 0 _ _ b _ w c (by show 0 + (i.val * 8 + l.val) < 64; omega)).trans ?_
    exact congrArg (fun t => x (ix4 b t w c)) (Fin.ext (Nat.zero_add _))
  · have hi7 : i.val = 7 := by omega
    refine (concat4_axis1_right _ _ _ b i w c (by omega) (by omega)).trans ?_
    refine (bcast3to4_axis1 _ _ b _ w c).trans ?_
    refine (hostMax4_axis1 _ _ _ (by decide) _ b w c).trans ?_
    refine congrArg₂ (fun a f => Finset.fold max a f Finset.univ) ofBits_negInf (funext fun l => ?_)
    refine (slice4_axis1 56 _ _ b l w c (by omega)).trans ?_
    exact congrArg (fun t => x (ix4 b t w c)) (Fin.ext (by show 56 + l.val = i.val * 8 + l.val; omega))

/-- Columns: bin `(i, j)` is the largest, over columns `8 j … 8 j + 7`, of the row bin `i`. -/
theorem bins8_apply (x : Img) (b : Fin 32) (i j : Fin 8) (c : Fin 512) :
    bins8 (F := Ideal) x (ix4 b i j c)
      = (Finset.univ : Finset (Fin 8)).fold max ⊥ (fun l => rows8 (F := Ideal) x (ix4 b i ⟨j.val * 8 + l.val, by omega⟩ c)) := by
  unfold bins8
  by_cases hj : j.val < 7
  · refine (concat4_axis2_left _ _ _ b i j c hj).trans ?_
    refine (hostMax5_axis3 _ _ _ (by decide) _ b i ⟨j.val, hj⟩ c).trans ?_
    refine congrArg₂ (fun a f => Finset.fold max a f Finset.univ) ofBits_negInf (funext fun l => ?_)
    refine (cast4to5_split2 _ _ (by norm_num) b i ⟨j.val, hj⟩ l c (by show j.val * 8 + l.val < 56; omega)).trans ?_
    refine (slice4_axis2 0 _ _ b i _ c (by show 0 + (j.val * 8 + l.val) < 64; omega)).trans ?_
    exact congrArg (fun t => rows8 (F := Ideal) x (ix4 b i t c)) (Fin.ext (Nat.zero_add _))
  · have hj7 : j.val = 7 := by omega
    refine (concat4_axis2_right _ _ _ b i j c (by omega) (by omega)).trans ?_
    refine (bcast3to4_axis2 _ _ b i _ c).trans ?_
    refine (hostMax4_axis2 _ _ _ (by decide) _ b i c).trans ?_
    refine congrArg₂ (fun a f => Finset.fold max a f Finset.univ) ofBits_negInf (funext fun l => ?_)
    refine (slice4_axis2 56 _ _ b i l c (by omega)).trans ?_
    exact congrArg (fun t => rows8 (F := Ideal) x (ix4 b i t c)) (Fin.ext (by show 56 + l.val = j.val * 8 + l.val; omega))

/-- A bin of the table is the largest entry of its 8 × 8 pixels. -/
theorem bins8_eq_binMax (x : Img) (b : Fin 32) (i j : Fin 8) (c : Fin 512) :
    bins8 (F := Ideal) x (ix4 b i j c) = binMax x b c 8 i.val j.val := by
  refine eq_of_upper fun z => ?_
  rw [bins8_apply, foldMax_le_iff, binMax_le_iff]
  simp only [rows8_apply, foldMax_le_iff]
  constructor
  · intro H h w hh hw
    have e := H ⟨w.val % 8, Nat.mod_lt _ (by norm_num)⟩ ⟨h.val % 8, Nat.mod_lt _ (by norm_num)⟩
    have e1 : (⟨i.val * 8 + h.val % 8, by omega⟩ : Fin 64) = h := Fin.ext (by show i.val * 8 + h.val % 8 = h.val; omega)
    have e2 : (⟨j.val * 8 + w.val % 8, by omega⟩ : Fin 64) = w := Fin.ext (by show j.val * 8 + w.val % 8 = w.val; omega)
    rw [e1, e2] at e
    exact e
  · intro H l k
    exact H _ _ (by show (i.val * 8 + k.val) / 8 = i.val; omega) (by show (j.val * 8 + l.val) / 8 = j.val; omega)

/-- The flattened table: entry `(i 8 + j) 512 + c` of image `b`'s row is bin `(i, j)` in channel `c`. -/
theorem flat8_apply (x : Img) (b : Fin 32) (i j : Fin 8) (c : Fin 512) (hn : (i.val * 8 + j.val) * 512 + c.val < 32768) :
    flat8 (F := Ideal) x (ix2 b ⟨(i.val * 8 + j.val) * 512 + c.val, hn⟩) = binMax x b c 8 i.val j.val := by
  unfold flat8
  exact (cast4to2_flat _ _ (by norm_num) b i j c hn).trans (bins8_eq_binMax x b i j c)

end Cert.ReferenceIdeal.Stages

end
-- ==== Proof.RefOut.lean ====
/-
  The reference's result is the pyramid: an entry `n` of image `b`'s row lies in one of the four tables according to
  `n`'s range, and within its table in the bin and channel that `n`'s quotients and remainders name.
-/
import proofs.«104218_j23235773071813_2_alg».proof.Proof.RefPool1
import proofs.«104218_j23235773071813_2_alg».proof.Proof.RefPool2
import proofs.«104218_j23235773071813_2_alg».proof.Proof.RefPool4
import proofs.«104218_j23235773071813_2_alg».proof.Proof.RefPool8

noncomputable section

namespace Cert.ReferenceIdeal.Stages

open Cert.ReferenceIdeal Cert.ReferenceIdeal.Gen Idealize.ShloMosaic Idealize.ShloMosaic.ValueIdx Cert.LibPoolHost Cert.Pool

/-- A bin maximum depends only on the values of its channel and bin coordinates. -/
theorem binMax_congr (x : Img) (b : Fin 32) {c c' : Fin 512} {d i i' j j' : ℕ} (hc : c = c') (hi : i = i') (hj : j = j') :
    binMax x b c d i j = binMax x b c' d i' j' := by
  subst hc hi hj; rfl

set_option maxRecDepth 100000 in
/-- Entry by entry, the four tables side by side are the pyramid. -/
theorem out_eq_G (x : Img) : out (F := Ideal) x = G x := by
  funext idx
  obtain ⟨b, n, rfl⟩ : ∃ (b : Fin 32) (n : Fin 43520), idx = ix2 b n := ⟨idx 0, idx 1, eq_ix2 idx⟩
  show out (F := Ideal) x (ix2 b n) = pyramid x b (n.val / 512) ⟨n.val % 512, Nat.mod_lt _ (by norm_num)⟩
  have hn := n.isLt
  unfold out pyramid
  by_cases h0 : n.val < 512
  · have hlo : 0 ≤ n.val := by omega
    have hn' : n.val - 0 < 512 := by omega
    refine (concatenate_apply_piece 1 _ _ (ix2 b n) 0 (by simp) S32x512 (flat1 (F := Ideal) x) rfl rfl 0 rfl
      (ix2 b ⟨n.val - 0, hn'⟩) (fun a ha => by
        match a with
        | ⟨0, _⟩ => rfl
        | ⟨1, _⟩ => exact absurd rfl ha) (by show 0 + (n.val - 0) = n.val; omega)).trans ?_
    have hi : (n.val - 0) / 512 < 1 := by omega
    have hj : (n.val - 0) / 512 % 1 < 1 := Nat.mod_lt _ (by norm_num)
    have hc : (n.val - 0) % 512 < 512 := Nat.mod_lt _ (by norm_num)
    have e : (⟨n.val - 0, hn'⟩ : Fin 512)
        = ⟨((n.val - 0) / 512 * 1 + (n.val - 0) / 512 % 1) * 512 + (n.val - 0) % 512, by omega⟩ :=
      Fin.ext (by show n.val - 0 = ((n.val - 0) / 512 * 1 + (n.val - 0) / 512 % 1) * 512 + (n.val - 0) % 512; omega)
    rw [e]
    refine (flat1_apply x b ⟨_, hi⟩ ⟨_, hj⟩ ⟨_, hc⟩ _).trans ?_
    rw [if_pos (by omega : n.val / 512 < 1)]
    exact binMax_congr x b (Fin.ext (by show (n.val - 0) % 512 = n.val % 512; omega))
      (by show (n.val - 0) / 512 = 0; omega)
      (by show (n.val - 0) / 512 % 1 = 0; omega)
  by_cases h1 : n.val < 2560
  · have hlo : 512 ≤ n.val := by omega
    have hn' : n.val - 512 < 2048 := by omega
    refine (concatenate_apply_piece 1 _ _ (ix2 b n) 1 (by simp) S32x2048 (flat2 (F := Ideal) x) rfl rfl 512 rfl
      (ix2 b ⟨n.val - 512, hn'⟩) (fun a ha => by
        match a with
        | ⟨0, _⟩ => rfl
        | ⟨1, _⟩ => exact absurd rfl ha) (by show 512 + (n.val - 512) = n.val; omega)).trans ?_
    have hi : (n.val - 512) / 1024 < 2 := by omega
    have hj : (n.val - 512) / 512 % 2 < 2 := Nat.mod_lt _ (by norm_num)
    have hc : (n.val - 512) % 512 < 512 := Nat.mod_lt _ (by norm_num)
    have e : (⟨n.val - 512, hn'⟩ : Fin 2048)
        = ⟨((n.val - 512) / 1024 * 2 + (n.val - 512) / 512 % 2) * 512 + (n.val - 512) % 512, by omega⟩ :=
      Fin.ext (by show n.val - 512 = ((n.val - 512) / 1024 * 2 + (n.val - 512) / 512 % 2) * 512 + (n.val - 512) % 512; omega)
    rw [e]
    refine (flat2_apply x b ⟨_, hi⟩ ⟨_, hj⟩ ⟨_, hc⟩ _).trans ?_
    rw [if_neg (by omega : ¬ n.val / 512 < 1), if_pos (by omega : n.val / 512 < 5)]
    exact binMax_congr x b (Fin.ext (by show (n.val - 512) % 512 = n.val % 512; omega))
      (by show (n.val - 512) / 1024 = (n.val / 512 - 1) / 2; omega)
      (by show (n.val - 512) / 512 % 2 = (n.val / 512 - 1) % 2; omega)
  by_cases h2 : n.val < 10752
  · have hlo : 2560 ≤ n.val := by omega
    have hn' : n.val - 2560 < 8192 := by omega
    refine (concatenate_apply_piece 1 _ _ (ix2 b n) 2 (by simp) S32x8192 (flat4 (F := Ideal) x) rfl rfl 2560 rfl
      (ix2 b ⟨n.val - 2560, hn'⟩) (fun a ha => by
        match a with
        | ⟨0, _⟩ => rfl
        | ⟨1, _⟩ => exact absurd rfl ha) (by show 2560 + (n.val - 2560) = n.val; omega)).trans ?_
    have hi : (n.val - 2560) / 2048 < 4 := by omega
    have hj : (n.val - 2560) / 512 % 4 < 4 := Nat.mod_lt _ (by norm_num)
    have hc : (n.val - 2560) % 512 < 512 := Nat.mod_lt _ (by norm_num)
    have e : (⟨n.val - 2560, hn'⟩ : Fin 8192)
        = ⟨((n.val - 2560) / 2048 * 4 + (n.val - 2560) / 512 % 4) * 512 + (n.val - 2560) % 512, by omega⟩ :=
      Fin.ext (by show n.val - 2560 = ((n.val - 2560) / 2048 * 4 + (n.val - 2560) / 512 % 4) * 512 + (n.val - 2560) % 512; omega)
    rw [e]
    refine (flat4_apply x b ⟨_, hi⟩ ⟨_, hj⟩ ⟨_, hc⟩ _).trans ?_
    rw [if_neg (by omega : ¬ n.val / 512 < 1), if_neg (by omega : ¬ n.val / 512 < 5), if_pos (by omega : n.val / 512 < 21)]
    exact binMax_congr x b (Fin.ext (by show (n.val - 2560) % 512 = n.val % 512; omega))
      (by show (n.val - 2560) / 2048 = (n.val / 512 - 5) / 4; omega)
      (by show (n.val - 2560) / 512 % 4 = (n.val / 512 - 5) % 4; omega)
  have hlo : 10752 ≤ n.val := by omega
  have hn' : n.val - 10752 < 32768 := by omega
  refine (concatenate_apply_piece 1 _ _ (ix2 b n) 3 (by simp) S32x32768 (flat8 (F := Ideal) x) rfl rfl 10752 (by simp)
    (ix2 b ⟨n.val - 10752, hn'⟩) (fun a ha => by
      match a with
      | ⟨0, _⟩ => rfl
      | ⟨1, _⟩ => exact absurd rfl ha) (by show 10752 + (n.val - 10752) = n.val; omega)).trans ?_
  have hi : (n.val - 10752) / 4096 < 8 := by omega
  have hj : (n.val - 10752) / 512 % 8 < 8 := Nat.mod_lt _ (by norm_num)
  have hc : (n.val - 10752) % 512 < 512 := Nat.mod_lt _ (by norm_num)
  have e : (⟨n.val - 10752, hn'⟩ : Fin 32768)
      = ⟨((n.val - 10752) / 4096 * 8 + (n.val - 10752) / 512 % 8) * 512 + (n.val - 10752) % 512, by omega⟩ :=
    Fin.ext (by show n.val - 10752 = ((n.val - 10752) / 4096 * 8 + (n.val - 10752) / 512 % 8) * 512 + (n.val - 10752) % 512; omega)
  rw [e]
  refine (flat8_apply x b ⟨_, hi⟩ ⟨_, hj⟩ ⟨_, hc⟩ _).trans ?_
  rw [if_neg (by omega : ¬ n.val / 512 < 1), if_neg (by omega : ¬ n.val / 512 < 5), if_neg (by omega : ¬ n.val / 512 < 21)]
  exact binMax_congr x b (Fin.ext (by show (n.val - 10752) % 512 = n.val % 512; omega))
    (by show (n.val - 10752) / 4096 = (n.val / 512 - 21) / 8; omega)
    (by show (n.val - 10752) / 512 % 8 = (n.val / 512 - 21) % 8; omega)

end Cert.ReferenceIdeal.Stages

end
-- ==== Proof.lean ====
/-
  Spatial-pyramid max pooling: the kernel and its reference compute the same table.

  The input is 32 images `x[b, h, w, c]` of 64 × 64 pixels and 512 channels. For each image, each channel and each of
  the bin widths `d` = 64, 32, 16, 8 the result holds the largest entry of every bin `{(h, w) : h / d = i, w / d = j}`;
  the 1 + 4 + 16 + 64 bins, each scale's in row-major order, times 512 channels, make one row of 43520 entries per
  image (`Cert.Pool.G`, PoolSpec).

  The kernel builds the finest grid (width 8) by a maximum over the rows and then over the columns of each bin, and
  the three coarser grids as maxima of 2 × 2, 4 × 4 and 8 × 8 groups of the fine bins. The reference pools the image
  itself at each of the four widths, every axis in two pieces (all bins but the last from a reshaped slice, the last
  bin from the remaining rows or columns) which it joins again. Every value on either side is a running maximum from
  `-∞` of finitely many entries, hence the least upper bound of the entries it ranges over, and both sides range over
  exactly the pixels of the bin: a maximum of maxima is the maximum of the union, and `(h / 8) / k = h / (8 k)`. Two
  extended reals with the same upper bounds are equal. No arithmetic is involved, and the inputs' finiteness is not
  used: the equality holds for all extended-real inputs.

  The three programs run, without faults and leaving the argument as it was; the idealization of the kernel changes
  none of its operations, so there is nothing to preserve.
-/
import proofs.«104218_j23235773071813_2_alg».proof.Defs
import proofs.«104218_j23235773071813_2_alg».proof.Proof.Gen.Kernel
import proofs.«104218_j23235773071813_2_alg».proof.Proof.Gen.Kernel.Frame
import proofs.«104218_j23235773071813_2_alg».proof.Proof.Gen.KernelIdeal
import proofs.«104218_j23235773071813_2_alg».proof.Proof.Gen.KernelIdeal.Frame
import proofs.«104218_j23235773071813_2_alg».proof.Proof.Gen.ReferenceIdeal
import proofs.«104218_j23235773071813_2_alg».proof.Proof.Gen.Pre_finite_inputs
import proofs.«104218_j23235773071813_2_alg».proof.Proof.KernelPoolRun
import proofs.«104218_j23235773071813_2_alg».proof.Proof.RefRun
import proofs.«104218_j23235773071813_2_alg».proof.Proof.RefOut
import Idealize.ShloMosaic.Adequacy
import Idealize.ShloMosaic.Init

noncomputable section

namespace Cert.Proof

open Idealize.ShloMosaic Idealize.SL.Sem

/-- The kernel as printed runs and leaves its argument unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Over the extended reals the kernel's result and the reference's, from equal arguments, are both the pyramid of
    bin maxima of the argument. -/
theorem algebraic : Cert.algebraic_KernelIdeal_ReferenceIdeal := by
  intro m ρ m' ρ' _ hagree
  refine ⟨fun c => Cert.Pool.G (m ((c.tc : Thread Cert.KernelIdeal.nD Cert.KernelIdeal.τ).loc Cert.KernelIdeal.main_arg0)),
    Cert.KernelIdeal.PoolValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.Stages.out_eq_G, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
